-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel

variable [Facts]

def fn_part1 {F : FTy → Type} [FloatOps F] (main_v13 : IVec S_ 1) (main_v16 : IVec S4x64x256x256 1) : IVec S_ 1 :=
  let main_c_5 : IVec S_ 1 := constantI S_ 1 1#1
  let main_v17 : IVec S_ 1 := (fun x v => Host.reduce IntOp.andi x v reducesTo_S4x64x256x256_S_d0_1_2_3 h_S_) main_v16 main_c_5
  let main_v18 : IVec S_ 1 := andi main_v13 main_v17
  main_v18

def fn {F : FTy → Type} [FloatOps F] (main_arg0 : FVec F S4x64x256x256 .f32) (main_arg1 : FVec F S4x64x256x256 .f32) (main_arg2 : FVec F S4x64x256x256 .f32) (main_arg3 : FVec F S4x64x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  let main_v4 : FVec F S4x64x256x256 .f32 := Host.absf main_arg1
  let main_cst_0 : FVec F S_ .f32 := constant S_ .f32 0x7F800000#32
  let main_v5 : FVec F S4x64x256x256 .f32 := broadcastInDim S4x64x256x256 ![] bcast_S_S4x64x256x256 main_cst_0
  let main_v6 : IVec S4x64x256x256 1 := cmpf .olt main_v4 main_v5
  let main_c_1 : IVec S_ 1 := constantI S_ 1 1#1
  let main_v7 : IVec S_ 1 := (fun x v => Host.reduce IntOp.andi x v reducesTo_S4x64x256x256_S_d0_1_2_3 h_S_) main_v6 main_c_1
  let main_v8 : IVec S_ 1 := andi main_v3 main_v7
  let main_v9 : FVec F S4x64x256x256 .f32 := Host.absf main_arg2
  let main_cst_2 : FVec F S_ .f32 := constant S_ .f32 0x7F800000#32
  let main_v10 : FVec F S4x64x256x256 .f32 := broadcastInDim S4x64x256x256 ![] bcast_S_S4x64x256x256 main_cst_2
  let main_v11 : IVec S4x64x256x256 1 := cmpf .olt main_v9 main_v10
  let main_c_3 : IVec S_ 1 := constantI S_ 1 1#1
  let main_v12 : IVec S_ 1 := (fun x v => Host.reduce IntOp.andi x v reducesTo_S4x64x256x256_S_d0_1_2_3 h_S_) main_v11 main_c_3
  let main_v13 : IVec S_ 1 := andi main_v8 main_v12
  let main_v14 : FVec F S4x64x256x256 .f32 := Host.absf main_arg3
  let main_cst_4 : FVec F S_ .f32 := constant S_ .f32 0x7F800000#32
  let main_v15 : FVec F S4x64x256x256 .f32 := broadcastInDim S4x64x256x256 ![] bcast_S_S4x64x256x256 main_cst_4
  let main_v16 : IVec S4x64x256x256 1 := cmpf .olt main_v14 main_v15
  fn_part1 (F := F) main_v13 main_v16
-- ==== Kernel.lean ====
abbrev S4x64x256x256 : Shape := ⟨4, ![4, 64, 256, 256]⟩
abbrev S4x64x512x512 : Shape := ⟨4, ![4, 64, 512, 512]⟩
abbrev S1x4x256x256 : Shape := ⟨4, ![1, 4, 256, 256]⟩
abbrev S1x4x512x512 : Shape := ⟨4, ![1, 4, 512, 512]⟩
abbrev S1x4x8x256 : Shape := ⟨4, ![1, 4, 8, 256]⟩
abbrev S1x4x8x256x1 : Shape := ⟨5, ![1, 4, 8, 256, 1]⟩
abbrev S1x4x8x256x2 : Shape := ⟨5, ![1, 4, 8, 256, 2]⟩
abbrev S1x4x8x512 : Shape := ⟨4, ![1, 4, 8, 512]⟩
abbrev S1x4x8x1x512 : Shape := ⟨5, ![1, 4, 8, 1, 512]⟩
abbrev S1x4x8x2x512 : Shape := ⟨5, ![1, 4, 8, 2, 512]⟩
abbrev S1x4x16x512 : Shape := ⟨4, ![1, 4, 16, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x64x256x256, .f32⟩
  | .hbm, ⟨1, _⟩ => ⟨S4x64x256x256, .f32⟩
  | .hbm, ⟨2, _⟩ => ⟨S4x64x256x256, .f32⟩
  | .hbm, ⟨3, _⟩ => ⟨S4x64x256x256, .f32⟩
  | .hbm, ⟨4, _⟩ => ⟨S4x64x512x512, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x256x256, .f32⟩
  | .local _ .vmem, ⟨3, _⟩ => ⟨S1x4x256x256, .f32⟩
  | .local _ .vmem, ⟨4, _⟩ => ⟨S1x4x256x256, .f32⟩
  | .local _ .vmem, ⟨5, _⟩ => ⟨S1x4x256x256, .f32⟩
  | .local _ .vmem, ⟨6, _⟩ => ⟨S1x4x256x256, .f32⟩
  | .local _ .vmem, ⟨7, _⟩ => ⟨S1x4x256x256, .f32⟩
  | .local _ .vmem, ⟨8, _⟩ => ⟨S1x4x512x512, .f32⟩
  | .local _ .vmem, ⟨9, _⟩ => ⟨S1x4x512x512, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v1 : BitVec 32 := Scalar.muli arg7 c8_i32
  v1
def k0_off1 (k0_t1 : Fin k0_t1_loop.trips) : Fin 4 → Nat :=
  let c0 : Index := 0#32
  let c0_1 : Index := 0#32
  let c0_i32 : BitVec 32 := 0#32
  let c1_i32 : BitVec 32 := 1#32
  let arg7 : BitVec 32 := Scf.iv c0_i32 c1_i32 k0_t1
  let c8_i32 : BitVec 32 := 8#32
  let v1 : BitVec 32 := Scalar.muli arg7 c8_i32
  let v2 : BitVec 32 := v1
  let v3 : Index := Scalar.indexCast v2
  let c0_2 : Index := 0#32
  ![0, 0, v3.toNat, 0]
def k0_mult2 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let c8_i32 : BitVec 32 := 8#32
  let v1 : BitVec 32 := Scalar.muli arg7 c8_i32
  let v2 : BitVec 32 := v1
  let v43 : BitVec 32 := Scalar.muli c2_i32 v2
  v43
def k0_off2 (k0_t1 : Fin k0_t1_loop.trips) : Fin 4 → Nat :=
  let c0_15 : Index := 0#32
  let c0_16 : Index := 0#32
  let c2_i32 : BitVec 32 := 2#32
  let c0_i32 : BitVec 32 := 0#32
  let c1_i32 : BitVec 32 := 1#32
  let arg7 : BitVec 32 := Scf.iv c0_i32 c1_i32 k0_t1
  let c8_i32 : BitVec 32 := 8#32
  let v1 : BitVec 32 := Scalar.muli arg7 c8_i32
  let v2 : BitVec 32 := v1
  let v43 : BitVec 32 := Scalar.muli c2_i32 v2
  let v44 : BitVec 32 := v43
  let v45 : Index := Scalar.indexCast v44
  let c0_17 : Index := 0#32
  ![0, 0, v45.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  h_S1x4x8x256 : 0 < S1x4x8x256.numel
  shapeCasts_S1x4x8x256_S1x4x8x256x1 : S1x4x8x256.ShapeCasts S1x4x8x256x1
  concatenates_S1x4x8x256x1_S1x4x8x256x1_S1x4x8x256x2_d4 : Shape.Concatenates [S1x4x8x256x1, S1x4x8x256x1] S1x4x8x256x2 4
  shapeCasts_S1x4x8x256x2_S1x4x8x512 : S1x4x8x256x2.ShapeCasts S1x4x8x512
  shapeCasts_S1x4x8x512_S1x4x8x1x512 : S1x4x8x512.ShapeCasts S1x4x8x1x512
  concatenates_S1x4x8x1x512_S1x4x8x1x512_S1x4x8x2x512_d3 : Shape.Concatenates [S1x4x8x1x512, S1x4x8x1x512] S1x4x8x2x512 3
  shapeCasts_S1x4x8x2x512_S1x4x16x512 : S1x4x8x2x512.ShapeCasts S1x4x16x512
  h_S1x4x16x512 : 0 < S1x4x16x512.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x4x8x256.size a ≤ S1x4x256x256.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S1x4x16x512.size a ≤ S1x4x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S4x64x256x256.size a
  hwx0_0 : ∀ i : grid0.Coords, EltTy.bits .f32 = 32 ∨ (Rect.block (s := S4x64x256x256) S1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S4x64x256x256.size a
  hwx0_1 : ∀ i : grid0.Coords, EltTy.bits .f32 = 32 ∨ (Rect.block (s := S4x64x256x256) S1x4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x256.size a ≤ S4x64x256x256.size a
  hwx0_2 : ∀ i : grid0.Coords, EltTy.bits .f32 = 32 ∨ (Rect.block (s := S4x64x256x256) S1x4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x256x256.size a ≤ S4x64x256x256.size a
  hwx0_3 : ∀ i : grid0.Coords, EltTy.bits .f32 = 32 ∨ (Rect.block (s := S4x64x256x256) S1x4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x512x512.size a ≤ S4x64x512x512.size a
  hwx0_4 : ∀ i : grid0.Coords, EltTy.bits .f32 = 32 ∨ (Rect.block (s := S4x64x512x512) S1x4x512x512.size (cc0_transform_4 i) (hinb0_4 i)).WholeWords (EltTy.packing .f32)

variable [Facts₀]

abbrev win0_0 : Pipeline.Window sig grid0 :=
  Pipeline.Window.ofSpec (Memref.whole main_arg0) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x256x256 : Shape := ⟨4, ![4, 64, 256, 256]⟩
abbrev S_ : Shape := ⟨0, ![]⟩
abbrev S4x64x256x256x1 : Shape := ⟨5, ![4, 64, 256, 256, 1]⟩
abbrev S4x64x256x256x2 : Shape := ⟨5, ![4, 64, 256, 256, 2]⟩
abbrev S4x64x256x512 : Shape := ⟨4, ![4, 64, 256, 512]⟩
abbrev S4x64x256x1x512 : Shape := ⟨5, ![4, 64, 256, 1, 512]⟩
abbrev S4x64x256x2x512 : Shape := ⟨5, ![4, 64, 256, 2, 512]⟩
abbrev S4x64x512x512 : Shape := ⟨4, ![4, 64, 512, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x64x256x256, .f32⟩
  | .hbm, ⟨1, _⟩ => ⟨S4x64x256x256, .f32⟩
  | .hbm, ⟨2, _⟩ => ⟨S4x64x256x256, .f32⟩
  | .hbm, ⟨3, _⟩ => ⟨S4x64x256x256, .f32⟩
  | .hbm, ⟨4, _⟩ => ⟨S4x64x256x256, .f32⟩
  | .hbm, ⟨5, _⟩ => ⟨S4x64x256x256, .f32⟩
  | .hbm, ⟨6, _⟩ => ⟨S4x64x256x256, .f32⟩
  | .hbm, ⟨7, _⟩ => ⟨S_, .f32⟩
  | .hbm, ⟨8, _⟩ => ⟨S4x64x256x256, .f32⟩
  | .hbm, ⟨9, _⟩ => ⟨S4x64x256x256, .f32⟩
  | .hbm, ⟨10, _⟩ => ⟨S4x64x256x256, .f32⟩
  | .hbm, ⟨11, _⟩ => ⟨S4x64x256x256, .f32⟩
  | .hbm, ⟨12, _⟩ => ⟨S4x64x256x256, .f32⟩
  | .hbm, ⟨13, _⟩ => ⟨S_, .f32⟩
  | .hbm, ⟨14, _⟩ => ⟨S4x64x256x256, .f32⟩
  | .hbm, ⟨15, _⟩ => ⟨S4x64x256x256, .f32⟩
  | .hbm, ⟨16, _⟩ => ⟨S4x64x256x256, .f32⟩
  | .hbm, ⟨17, _⟩ => ⟨S4x64x256x256, .f32⟩
  | .hbm, ⟨18, _⟩ => ⟨S4x64x256x256, .f32⟩
  | .hbm, ⟨19, _⟩ => ⟨S_, .f32⟩
  | .hbm, ⟨20, _⟩ => ⟨S4x64x256x256, .f32⟩
  | .hbm, ⟨21, _⟩ => ⟨S4x64x256x256, .f32⟩
  | .hbm, ⟨22, _⟩ => ⟨S4x64x256x256, .f32⟩
  | .hbm, ⟨23, _⟩ => ⟨S4x64x256x256, .f32⟩
  | .hbm, ⟨24, _⟩ => ⟨S4x64x256x256, .f32⟩
  | .hbm, ⟨25, _⟩ => ⟨S_, .f32⟩
  | .hbm, ⟨26, _⟩ => ⟨S4x64x256x256, .f32⟩
  | .hbm, ⟨27, _⟩ => ⟨S4x64x256x256, .f32⟩
  | .hbm, ⟨28, _⟩ => ⟨S4x64x256x256x1, .f32⟩
  | .hbm, ⟨29, _⟩ => ⟨S4x64x256x256x1, .f32⟩
  | .hbm, ⟨30, _⟩ => ⟨S4x64x256x256x2, .f32⟩
  | .hbm, ⟨31, _⟩ => ⟨S4x64x256x512, .f32⟩
  | .hbm, ⟨32, _⟩ => ⟨S4x64x256x256x1, .f32⟩
  | .hbm, ⟨33, _⟩ => ⟨S4x64x256x256x1, .f32⟩
  | .hbm, ⟨34, _⟩ => ⟨S4x64x256x256x2, .f32⟩
  | .hbm, ⟨35, _⟩ => ⟨S4x64x256x512, .f32⟩
  | .hbm, ⟨36, _⟩ => ⟨S4x64x256x1x512, .f32⟩
  | .hbm, ⟨37, _⟩ => ⟨S4x64x256x1x512, .f32⟩
  | .hbm, ⟨38, _⟩ => ⟨S4x64x256x2x512, .f32⟩
  | .hbm, ⟨39, _⟩ => ⟨S4x64x512x512, .f32⟩
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S_S4x64x256x256 : S_.BroadcastsInDim S4x64x256x256 (![] : Fin 0 → Fin S4x64x256x256.rank)
  bcast_S4x64x256x256_S4x64x256x256x1_0_1_2_3 : S4x64x256x256.BroadcastsInDim S4x64x256x256x1 (![0, 1, 2, 3] : Fin 4 → Fin S4x64x256x256x1.rank)
  concatenates_S4x64x256x256x1_S4x64x256x256x1_S4x64x256x256x2_d4 : Shape.Concatenates [S4x64x256x256x1, S4x64x256x256x1] S4x64x256x256x2 4
  shapeCasts_S4x64x256x256x2_S4x64x256x512 : S4x64x256x256x2.ShapeCasts S4x64x256x512
  bcast_S4x64x256x512_S4x64x256x1x512_0_1_2_4 : S4x64x256x512.BroadcastsInDim S4x64x256x1x512 (![0, 1, 2, 4] : Fin 4 → Fin S4x64x256x1x512.rank)
  concatenates_S4x64x256x1x512_S4x64x256x1x512_S4x64x256x2x512_d3 : Shape.Concatenates [S4x64x256x1x512, S4x64x256x1x512] S4x64x256x2x512 3
  shapeCasts_S4x64x256x2x512_S4x64x512x512 : S4x64x256x2x512.ShapeCasts S4x64x512x512

variable [Facts₀]

class Facts : Prop extends Facts₀ where

variable [Facts]
-- ==== Proof.Haar.lean ====
/-
  The inverse two-dimensional Haar transform, as one function of the four subband arrays.

  The subbands `ll lh hl hh` have extents [B, C, H, W]; the image has extents [B, C, 2H, 2W].  The image sample at
  row `r` and column `s` is synthesised from the four coefficients at row `r / 2`, column `s / 2` of the same
  batch and channel, with signs chosen by the parities of `r` and `s`:

      even row, even column :  ((ll + lh) + hl + hh) · ½
      even row, odd  column :  ((ll + lh) − hl − hh) · ½
      odd  row, even column :  ((ll − lh) + hl − hh) · ½
      odd  row, odd  column :  ((ll − lh) − hl + hh) · ½

  Both programs apply these operations in exactly this order with the same literal for one half, so the
  function is stated over the float operations themselves and no law of the extended reals is needed; what
  differs between the programs is only how the image is laid out (tiles of sixteen rows filled by a loop
  against one stack-and-reshape of whole arrays).
-/
import Idealize.ShloMosaic.PureOps.Ideal
import Idealize.ShloMosaic.Lib.ValueIdx

noncomputable section

namespace Cert.Haar

open Idealize.ShloMosaic Idealize.ShloMosaic.ValueIdx

variable {F : FTy → Type} [FloatOps F]

/-- One half, as the literal both programs carry. -/
def half : F .f32 := FloatOps.ofBits .f32 0x3F000000#32

/-- The four synthesis formulas, chosen by the row parity `p` and the column parity `q`. -/
def synth (p q : Nat) (a b c d : F .f32) : F .f32 :=
  if p = 0 then
    if q = 0 then FloatOps.mulf (FloatOps.addf (FloatOps.addf (FloatOps.addf a b) c) d) half
    else FloatOps.mulf (FloatOps.subf (FloatOps.subf (FloatOps.addf a b) c) d) half
  else
    if q = 0 then FloatOps.mulf (FloatOps.subf (FloatOps.addf (FloatOps.subf a b) c) d) half
    else FloatOps.mulf (FloatOps.addf (FloatOps.subf (FloatOps.subf a b) c) d) half

theorem synth_00 (a b c d : F .f32) :
    synth 0 0 a b c d = FloatOps.mulf (FloatOps.addf (FloatOps.addf (FloatOps.addf a b) c) d) half := rfl
theorem synth_01 (a b c d : F .f32) :
    synth 0 1 a b c d = FloatOps.mulf (FloatOps.subf (FloatOps.subf (FloatOps.addf a b) c) d) half := rfl
theorem synth_10 (a b c d : F .f32) :
    synth 1 0 a b c d = FloatOps.mulf (FloatOps.subf (FloatOps.addf (FloatOps.subf a b) c) d) half := rfl
theorem synth_11 (a b c d : F .f32) :
    synth 1 1 a b c d = FloatOps.mulf (FloatOps.addf (FloatOps.subf (FloatOps.subf a b) c) d) half := rfl

/-- The coefficient position an image position is synthesised from: same batch and channel, half the row,
    half the column.  (`H2 = 2 H` and `W2 = 2 W` are hypotheses so that the extents stay literals.) -/
def src {B C H W H2 W2 : Nat} (hH : H2 = 2 * H) (hW : W2 = 2 * W)
    (y : (⟨4, ![B, C, H2, W2]⟩ : Shape).Idx) : (⟨4, ![B, C, H, W]⟩ : Shape).Idx :=
  ix4 (n0 := B) (n1 := C) (n2 := H) (n3 := W) (y 0) (y 1)
    ⟨(y 2).val / 2, by have h : (y 2).val < H2 := (y 2).isLt; omega⟩
    ⟨(y 3).val / 2, by have h : (y 3).val < W2 := (y 3).isLt; omega⟩

/-- The image: at every position the synthesis, by the position's parities, of the four coefficients at
    its source position. -/
def image {B C H W H2 W2 : Nat} (hH : H2 = 2 * H) (hW : W2 = 2 * W)
    (ll lh hl hh : (⟨4, ![B, C, H, W]⟩ : Shape).Idx → F .f32) :
    (⟨4, ![B, C, H2, W2]⟩ : Shape).Idx → F .f32 :=
  fun y => synth ((y 2).val % 2) ((y 3).val % 2) (ll (src hH hW y)) (lh (src hH hW y)) (hl (src hH hW y)) (hh (src hH hW y))

/-- The image at a position whose row is `2 i + p` and column `2 j + q` (`p, q < 2`): the synthesis by
    `p, q` of the coefficients at any position `k` with the same batch and channel, row `i`, column `j`. -/
theorem image_apply {B C H W H2 W2 : Nat} (hH : H2 = 2 * H) (hW : W2 = 2 * W)
    (ll lh hl hh : (⟨4, ![B, C, H, W]⟩ : Shape).Idx → F .f32)
    (y : (⟨4, ![B, C, H2, W2]⟩ : Shape).Idx) (k : (⟨4, ![B, C, H, W]⟩ : Shape).Idx) (p q : Nat)
    (hp : p < 2) (hq : q < 2)
    (h0 : (k 0).val = (y 0).val) (h1 : (k 1).val = (y 1).val)
    (h2 : (y 2).val = 2 * (k 2).val + p) (h3 : (y 3).val = 2 * (k 3).val + q) :
    image hH hW ll lh hl hh y = synth p q (ll k) (lh k) (hl k) (hh k) := by
  have hk : src hH hW y = k := by
    funext a
    apply Fin.ext
    match a with
    | ⟨0, _⟩ => exact h0.symm
    | ⟨1, _⟩ => exact h1.symm
    | ⟨2, _⟩ => show (y 2).val / 2 = (k 2).val; omega
    | ⟨3, _⟩ => show (y 3).val / 2 = (k 3).val; omega
  have ep : (y 2).val % 2 = p := by omega
  have eq : (y 3).val % 2 = q := by omega
  unfold image
  rw [hk, ep, eq]

end Cert.Haar

end
-- ==== Proof.Tile.lean ====
/-
  One trip's tile of the image.

  A trip of the row loop reads eight rows of each subband (vectors of extents [1, 4, 8, 256]) and builds a tile
  of sixteen image rows, [1, 4, 16, 512], by two interleavings:

    * along the lanes: two [1, 4, 8, 256] vectors `a, b` become one [1, 4, 8, 512] vector whose column `s`
      is column `s / 2` of `a` when `s` is even and of `b` when `s` is odd (each gets a trailing unit axis,
      the two are joined on that axis, and the [256, 2] pair of axes is flattened to 512);
    * along the rows: two [1, 4, 8, 512] vectors become one [1, 4, 16, 512] vector whose row `r` is row
      `r / 2` of the first when `r` is even and of the second when `r` is odd (a unit axis before the
      lanes, joined there, and the [8, 2] pair of axes flattened to 16).

  Flattening preserves the row-major position, so each reading is one equation between two positions, linear
  arithmetic in the coordinates.  Composed, the tile at row `2 i + p`, column `2 j + q` is the synthesis by
  the parities `p, q` of the four loaded coefficients at row `i`, column `j`.
-/
import proofs.«171421_j34754875359596_2_alg».proof.Proof.Gen.KernelIdeal.Skeleton
import proofs.«171421_j34754875359596_2_alg».proof.Proof.Haar
import Idealize.ShloMosaic.Lib.Pipeline.Value
import Idealize.ShloMosaic.Lib.ValueIdx

noncomputable section

namespace Cert.KernelIdeal.Tile

open Idealize.ShloMosaic Idealize.ShloMosaic.ValueIdx Cert.KernelIdeal

section Interleave

variable {α : Type}

/-- A position of a [1, 4, 8, 256] vector with one more, trailing coordinate `e` below `n`. -/
abbrev lanePos {n : Nat} (k : S1x4x8x256.Idx) (e : Fin n) : (⟨5, ![1, 4, 8, 256, n]⟩ : Shape).Idx :=
  ix5 (n0 := 1) (n1 := 4) (n2 := 8) (n3 := 256) (n4 := n) (k 0) (k 1) (k 2) (k 3) e

/-- A position of a [1, 4, 8, 512] vector with one more coordinate `e` below `n` put before the lanes. -/
abbrev rowPos {n : Nat} (k : S1x4x8x512.Idx) (e : Fin n) : (⟨5, ![1, 4, 8, n, 512]⟩ : Shape).Idx :=
  ix5 (n0 := 1) (n1 := 4) (n2 := 8) (n3 := n) (n4 := 512) (k 0) (k 1) (k 2) e (k 3)

/-- Two [1, 4, 8, 256] vectors interleaved along the lanes, read at column `2 j + q`: the first at column
    `j` when `q = 0`, the second when `q = 1`. -/
theorem lanes_apply (a b : S1x4x8x256.Idx → α)
    (hA : S1x4x8x256.ShapeCasts S1x4x8x256x1)
    (hC : Shape.Concatenates [S1x4x8x256x1, S1x4x8x256x1] S1x4x8x256x2 4)
    (hB : S1x4x8x256x2.ShapeCasts S1x4x8x512)
    (y : S1x4x8x512.Idx) (k : S1x4x8x256.Idx) (q : Nat) (hq : q < 2)
    (h0 : (k 0).val = (y 0).val) (h1 : (k 1).val = (y 1).val) (h2 : (k 2).val = (y 2).val)
    (h3 : (y 3).val = 2 * (k 3).val + q) :
    shapeCast S1x4x8x512 (concatenate S1x4x8x256x2 4
        [⟨S1x4x8x256x1, shapeCast S1x4x8x256x1 a hA⟩, ⟨S1x4x8x256x1, shapeCast S1x4x8x256x1 b hA⟩] hC) hB y
      = if q = 0 then a k else b k := by
  have k0 : (k 0).val < 1 := (k 0).isLt
  have k1 : (k 1).val < 4 := (k 1).isLt
  have k2 : (k 2).val < 8 := (k 2).isLt
  have k3 : (k 3).val < 256 := (k 3).isLt
  -- the position with a trailing unit axis, under either operand
  have hunit : (S1x4x8x256.rowMajor k).val
      = (S1x4x8x256x1.rowMajor (lanePos (n := 1) k ⟨0, by decide⟩)).val := by
    rewrite [Shape.rowMajor_val_five, Shape.rowMajor_val_four]
    show (((k 0).val * 4 + (k 1).val) * 8 + (k 2).val) * 256 + (k 3).val
      = ((((k 0).val * 4 + (k 1).val) * 8 + (k 2).val) * 256 + (k 3).val) * 1 + 0
    omega
  have hq' : q = 0 ∨ q = 1 := by omega
  rcases hq' with rfl | rfl
  · rw [if_pos rfl]
    refine (shapeCast_apply _ hB y
      (lanePos (n := 2) k ⟨0, by decide⟩) ?_).trans ?_
    · rewrite [Shape.rowMajor_val_five, Shape.rowMajor_val_four]
      show ((((k 0).val * 4 + (k 1).val) * 8 + (k 2).val) * 256 + (k 3).val) * 2 + 0
        = (((y 0).val * 4 + (y 1).val) * 8 + (y 2).val) * 512 + (y 3).val
      omega
    refine (concatenate_pair_apply_left (t := S1x4x8x256x2) (s₁ := S1x4x8x256x1) (s₂ := S1x4x8x256x1) (4 : Fin 5) _ _ hC
      (lanePos (n := 2) k ⟨0, by decide⟩) rfl
      (lanePos (n := 1) k ⟨0, by decide⟩)
      (fun b => match b with
        | ⟨0, _⟩ => rfl | ⟨1, _⟩ => rfl | ⟨2, _⟩ => rfl | ⟨3, _⟩ => rfl | ⟨4, _⟩ => rfl)).trans ?_
    exact shapeCast_apply a hA _ k hunit
  · rw [if_neg (by decide)]
    refine (shapeCast_apply _ hB y
      (lanePos (n := 2) k ⟨1, by decide⟩) ?_).trans ?_
    · rewrite [Shape.rowMajor_val_five, Shape.rowMajor_val_four]
      show ((((k 0).val * 4 + (k 1).val) * 8 + (k 2).val) * 256 + (k 3).val) * 2 + 1
        = (((y 0).val * 4 + (y 1).val) * 8 + (y 2).val) * 512 + (y 3).val
      omega
    refine (concatenate_pair_apply_right (t := S1x4x8x256x2) (s₁ := S1x4x8x256x1) (s₂ := S1x4x8x256x1) (4 : Fin 5) _ _ hC
      (lanePos (n := 2) k ⟨1, by decide⟩) rfl rfl
      (lanePos (n := 1) k ⟨0, by decide⟩)
      (fun b hb => match b, hb with
        | ⟨0, _⟩, _ => rfl | ⟨1, _⟩, _ => rfl | ⟨2, _⟩, _ => rfl | ⟨3, _⟩, _ => rfl
        | ⟨4, _⟩, hb => absurd rfl hb)
      rfl).trans ?_
    exact shapeCast_apply b hA _ k hunit

/-- Two [1, 4, 8, 512] vectors interleaved along the rows, read at row `2 i + p`: the first at row `i` when
    `p = 0`, the second when `p = 1`. -/
theorem rows_apply (a b : S1x4x8x512.Idx → α)
    (hA : S1x4x8x512.ShapeCasts S1x4x8x1x512)
    (hC : Shape.Concatenates [S1x4x8x1x512, S1x4x8x1x512] S1x4x8x2x512 3)
    (hB : S1x4x8x2x512.ShapeCasts S1x4x16x512)
    (y : S1x4x16x512.Idx) (k : S1x4x8x512.Idx) (p : Nat) (hp : p < 2)
    (h0 : (k 0).val = (y 0).val) (h1 : (k 1).val = (y 1).val) (h2 : (y 2).val = 2 * (k 2).val + p)
    (h3 : (k 3).val = (y 3).val) :
    shapeCast S1x4x16x512 (concatenate S1x4x8x2x512 3
        [⟨S1x4x8x1x512, shapeCast S1x4x8x1x512 a hA⟩, ⟨S1x4x8x1x512, shapeCast S1x4x8x1x512 b hA⟩] hC) hB y
      = if p = 0 then a k else b k := by
  have k0 : (k 0).val < 1 := (k 0).isLt
  have k1 : (k 1).val < 4 := (k 1).isLt
  have k2 : (k 2).val < 8 := (k 2).isLt
  have k3 : (k 3).val < 512 := (k 3).isLt
  have hunit : (S1x4x8x512.rowMajor k).val
      = (S1x4x8x1x512.rowMajor (rowPos (n := 1) k ⟨0, by decide⟩)).val := by
    rewrite [Shape.rowMajor_val_five, Shape.rowMajor_val_four]
    show (((k 0).val * 4 + (k 1).val) * 8 + (k 2).val) * 512 + (k 3).val
      = ((((k 0).val * 4 + (k 1).val) * 8 + (k 2).val) * 1 + 0) * 512 + (k 3).val
    omega
  have hp' : p = 0 ∨ p = 1 := by omega
  rcases hp' with rfl | rfl
  · rw [if_pos rfl]
    refine (shapeCast_apply _ hB y
      (rowPos (n := 2) k ⟨0, by decide⟩) ?_).trans ?_
    · rewrite [Shape.rowMajor_val_five, Shape.rowMajor_val_four]
      show ((((k 0).val * 4 + (k 1).val) * 8 + (k 2).val) * 2 + 0) * 512 + (k 3).val
        = (((y 0).val * 4 + (y 1).val) * 16 + (y 2).val) * 512 + (y 3).val
      omega
    refine (concatenate_pair_apply_left (t := S1x4x8x2x512) (s₁ := S1x4x8x1x512) (s₂ := S1x4x8x1x512) (3 : Fin 5) _ _ hC
      (rowPos (n := 2) k ⟨0, by decide⟩) rfl
      (rowPos (n := 1) k ⟨0, by decide⟩)
      (fun b => match b with
        | ⟨0, _⟩ => rfl | ⟨1, _⟩ => rfl | ⟨2, _⟩ => rfl | ⟨3, _⟩ => rfl | ⟨4, _⟩ => rfl)).trans ?_
    exact shapeCast_apply a hA _ k hunit
  · rw [if_neg (by decide)]
    refine (shapeCast_apply _ hB y
      (rowPos (n := 2) k ⟨1, by decide⟩) ?_).trans ?_
    · rewrite [Shape.rowMajor_val_five, Shape.rowMajor_val_four]
      show ((((k 0).val * 4 + (k 1).val) * 8 + (k 2).val) * 2 + 1) * 512 + (k 3).val
        = (((y 0).val * 4 + (y 1).val) * 16 + (y 2).val) * 512 + (y 3).val
      omega
    refine (concatenate_pair_apply_right (t := S1x4x8x2x512) (s₁ := S1x4x8x1x512) (s₂ := S1x4x8x1x512) (3 : Fin 5) _ _ hC
      (rowPos (n := 2) k ⟨1, by decide⟩) rfl rfl
      (rowPos (n := 1) k ⟨0, by decide⟩)
      (fun b hb => match b, hb with
        | ⟨0, _⟩, _ => rfl | ⟨1, _⟩, _ => rfl | ⟨2, _⟩, _ => rfl
        | ⟨3, _⟩, hb => absurd rfl hb
        | ⟨4, _⟩, _ => rfl)
      rfl).trans ?_
    exact shapeCast_apply b hA _ k hunit

end Interleave

variable {F : FTy → Type} [FloatOps F]

/-- The tile one trip builds from its four loads, read at row `2 i + p`, column `2 j + q` (`p, q < 2`): the
    synthesis by `p, q` of the loaded coefficients at the position `k` of row `i`, column `j`. -/
theorem pay_apply (v4 v6 v8 v10 : Vec F S1x4x8x256 .f32) (x : S1x4x16x512.Idx) (k : S1x4x8x256.Idx)
    (p q : Nat) (hp : p < 2) (hq : q < 2)
    (h0 : (k 0).val = (x 0).val) (h1 : (k 1).val = (x 1).val)
    (h2 : (x 2).val = 2 * (k 2).val + p) (h3 : (x 3).val = 2 * (k 3).val + q) :
    Gen.k0_pay1 v4 v6 v8 v10 x = Cert.Haar.synth p q (v4 k) (v6 k) (v8 k) (v10 k) := by
  have x3 : (x 3).val < 512 := (x 3).isLt
  unfold Gen.k0_pay1
  refine (rows_apply _ _ _ _ _ x
    (ix4 (n0 := 1) (n1 := 4) (n2 := 8) (n3 := 512) (k 0) (k 1) (k 2) ⟨(x 3).val, x3⟩) p hp h0 h1 h2 rfl).trans ?_
  have hp' : p = 0 ∨ p = 1 := by omega
  have hq' : q = 0 ∨ q = 1 := by omega
  rcases hp' with rfl | rfl
  · rw [if_pos rfl]
    refine (lanes_apply _ _ _ _ _ _ k q hq rfl rfl rfl h3).trans ?_
    rcases hq' with rfl | rfl
    · rw [if_pos rfl]; rfl
    · rw [if_neg (by decide)]; rfl
  · rw [if_neg (by decide)]
    refine (lanes_apply _ _ _ _ _ _ k q hq rfl rfl rfl h3).trans ?_
    rcases hq' with rfl | rfl
    · rw [if_pos rfl]; rfl
    · rw [if_neg (by decide)]; rfl

end Cert.KernelIdeal.Tile

end
-- ==== Proof.Pieces.lean ====
/-
  What the body leaves in the output's staging buffer: the image of the four staged subband blocks.

  The body is a loop of thirty-two trips.  Trip `k` loads rows `8 k … 8 k + 7` of each staged subband block
  ([1, 4, 256, 256]) and stores one tile of sixteen rows at rows `16 k … 16 k + 15` of the staged image block
  ([1, 4, 512, 512]).  A tile position `x` sits at block row `16 k + x₂`; the loaded position of row `x₂ / 2`
  sits at block row `8 k + x₂ / 2`; and `16 k + x₂ = 2 (8 k + x₂ / 2) + x₂ mod 2`.  So every store of every
  trip is the restriction, to its rectangle, of ONE function of the block position: the image of the four
  blocks.  The stores tile the block, hence after the loop the buffer holds that image everywhere.
-/
import proofs.«171421_j34754875359596_2_alg».proof.Proof.Gen.KernelIdeal.Frame
import proofs.«171421_j34754875359596_2_alg».proof.Proof.Tile

set_option maxRecDepth 16384

noncomputable section

namespace Cert.KernelIdeal.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The image of four [1, 4, 256, 256] blocks: a [1, 4, 512, 512] block. -/
abbrev blockImage (x0 x1 x2 x3 : S1x4x256x256.Idx → F .f32) : S1x4x512x512.Idx → F .f32 :=
  Cert.Haar.image (B := 1) (C := 4) (H := 256) (W := 256) (H2 := 512) (W2 := 512) rfl rfl x0 x1 x2 x3

/-- The subband-block position a result-block position is synthesised from: same leading coordinates, half
    the row, half the column. -/
abbrev srcBlock (j : S1x4x512x512.Idx) : S1x4x256x256.Idx :=
  Cert.Haar.src (B := 1) (C := 4) (H := 256) (W := 256) (H2 := 512) (W2 := 512) rfl rfl j

/-- A store is a tile of the image of the blocks `x0 … x3`: its payload at each of its positions is the image
    at the block position under it. -/
def IsTile (x0 x1 x2 x3 : S1x4x256x256.Idx → F .f32) (p : View.Piece (Elt F) S1x4x512x512 .f32) : Prop :=
  ∀ x : p.1.shape.Idx, p.2 x = blockImage x0 x1 x2 x3 (p.1.emb x)

/-- The loaded position a tile position is synthesised from: same leading coordinates, half the row, half
    the column. -/
abbrev srcPos (x : S1x4x16x512.Idx) : S1x4x8x256.Idx :=
  ix4 (n0 := 1) (n1 := 4) (n2 := 8) (n3 := 256) ⟨(x 0).val, (x 0).isLt⟩ ⟨(x 1).val, (x 1).isLt⟩
    ⟨(x 2).val / 2, by have h : (x 2).val < 16 := (x 2).isLt; omega⟩
    ⟨(x 3).val / 2, by have h : (x 3).val < 512 := (x 3).isLt; omega⟩

/-- The one store of trip `k` is a tile of the image of the staged blocks (the trip's definition is opened
    here, once: a store at rows `16 k …` of the tile built from the loads at rows `8 k …`). -/
theorem trip_tile (𝒱 : Variants) (c : Dev nD) (bd : Option 𝒱.V) (i : grid0.Coords) (arg2 : Memref sig .tc .vmem S1x4x256x256 .f32) (harg2 : arg2.IsWhole) (arg3 : Memref sig .tc .vmem S1x4x256x256 .f32) (harg3 : arg3.IsWhole) (arg4 : Memref sig .tc .vmem S1x4x256x256 .f32) (harg4 : arg4.IsWhole) (arg5 : Memref sig .tc .vmem S1x4x256x256 .f32) (harg5 : arg5.IsWhole) (arg6 : Memref sig .tc .vmem S1x4x512x512 .f32) (harg6 : arg6.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    ∀ p ∈ tripL_k0_t1 (F := F) 𝒱 c bd i arg2 harg2 arg3 harg3 arg4 harg4 arg5 harg5 arg6 harg6 X_arg2 X_arg3 X_arg4 X_arg5 k,
      IsTile (arg2.view.read (Elt F) X_arg2) (arg3.view.read (Elt F) X_arg3) (arg4.view.read (Elt F) X_arg4) (arg5.view.read (Elt F) X_arg5) p := by
  unfold tripL_k0_t1 trip_k0_t1
  dsimp only
  sl_unfold_run_names
  intro p hp
  rw [List.mem_singleton] at hp
  subst hp
  intro x
  dsimp only
  -- the offsets of the loads and of the store, in closed form
  have a0 : k0_off1 k 0 = 0 := by rw [k0_off1_eq]; rfl
  have a1 : k0_off1 k 1 = 0 := by rw [k0_off1_eq]; rfl
  have a2 : k0_off1 k 2 = 8 * k.val := by rw [k0_off1_eq]; rfl
  have a3 : k0_off1 k 3 = 0 := by rw [k0_off1_eq]; rfl
  have b0 : k0_off2 k 0 = 0 := by rw [k0_off2_eq]; rfl
  have b1 : k0_off2 k 1 = 0 := by rw [k0_off2_eq]; rfl
  have b2 : k0_off2 k 2 = 16 * k.val := by rw [k0_off2_eq]; rfl
  have b3 : k0_off2 k 3 = 0 := by rw [k0_off2_eq]; rfl
  have x0 : (x 0).val < 1 := (x 0).isLt
  have x1 : (x 1).val < 4 := (x 1).isLt
  have x2 : (x 2).val < 16 := (x 2).isLt
  have x3 : (x 3).val < 512 := (x 3).isLt
  -- the loaded position the tile position is synthesised from
  refine (Tile.pay_apply (F := F) _ _ _ _ x (srcPos x)
    ((x 2).val % 2) ((x 3).val % 2) (by omega) (by omega) rfl rfl
    (by show (x 2).val = 2 * ((x 2).val / 2) + (x 2).val % 2; omega)
    (by show (x 3).val = 2 * ((x 3).val / 2) + (x 3).val % 2; omega)).trans ?_
  refine (Cert.Haar.image_apply (F := F) rfl rfl
    (arg2.view.read (Elt F) X_arg2) (arg3.view.read (Elt F) X_arg3) (arg4.view.read (Elt F) X_arg4) (arg5.view.read (Elt F) X_arg5)
    ((Rect.unit (s := S1x4x512x512) (k0_off2 k) S1x4x16x512.size (k0_off2_inb k)).emb x)
    ((Rect.unit (s := S1x4x256x256) (k0_off1 k) S1x4x8x256.size (k0_off1_inb k)).toLoadRect.idx (srcPos x))
    ((x 2).val % 2) ((x 3).val % 2) (by omega) (by omega) ?_ ?_ ?_ ?_).symm
  · show k0_off1 k 0 + 1 * (x 0).val = k0_off2 k 0 + 1 * (x 0).val; omega
  · show k0_off1 k 1 + 1 * (x 1).val = k0_off2 k 1 + 1 * (x 1).val; omega
  · show k0_off2 k 2 + 1 * (x 2).val = 2 * (k0_off1 k 2 + 1 * ((x 2).val / 2)) + (x 2).val % 2; omega
  · show k0_off2 k 3 + 1 * (x 3).val = 2 * (k0_off1 k 3 + 1 * ((x 3).val / 2)) + (x 3).val % 2; omega

/-- So are all the stores of the trips before `n`, whatever `n`. -/
theorem trips_tile (𝒱 : Variants) (c : Dev nD) (bd : Option 𝒱.V) (i : grid0.Coords) (arg2 : Memref sig .tc .vmem S1x4x256x256 .f32) (harg2 : arg2.IsWhole) (arg3 : Memref sig .tc .vmem S1x4x256x256 .f32) (harg3 : arg3.IsWhole) (arg4 : Memref sig .tc .vmem S1x4x256x256 .f32) (harg4 : arg4.IsWhole) (arg5 : Memref sig .tc .vmem S1x4x256x256 .f32) (harg5 : arg5.IsWhole) (arg6 : Memref sig .tc .vmem S1x4x512x512 .f32) (harg6 : arg6.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    ∀ n : ℕ, ∀ p ∈ pb_k0_t1 (F := F) 𝒱 c bd i arg2 harg2 arg3 harg3 arg4 harg4 arg5 harg5 arg6 harg6 X_arg2 X_arg3 X_arg4 X_arg5 n,
      IsTile (arg2.view.read (Elt F) X_arg2) (arg3.view.read (Elt F) X_arg3) (arg4.view.read (Elt F) X_arg4) (arg5.view.read (Elt F) X_arg5) p
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_tile 𝒱 c bd i arg2 harg2 arg3 harg3 arg4 harg4 arg5 harg5 arg6 harg6 X_arg2 X_arg3 X_arg4 X_arg5 _ p h
      · exact trips_tile 𝒱 c bd i arg2 harg2 arg3 harg3 arg4 harg4 arg5 harg5 arg6 harg6 X_arg2 X_arg3 X_arg4 X_arg5 n p h
    · exact trips_tile 𝒱 c bd i arg2 harg2 arg3 harg3 arg4 harg4 arg5 harg5 arg6 harg6 X_arg2 X_arg3 X_arg4 X_arg5 n p hp

/-- AFTER THE BODY the output's staging buffer holds the image of the four staged blocks: the stores the run
    found are those of the loop's trips, each a tile of that image, and they cover the block. -/
theorem out_eq (c : Dev nD) (i : grid0.Coords) (arg2 : Memref sig .tc .vmem S1x4x256x256 .f32) (harg2 : arg2.IsWhole) (arg3 : Memref sig .tc .vmem S1x4x256x256 .f32) (harg3 : arg3.IsWhole) (arg4 : Memref sig .tc .vmem S1x4x256x256 .f32) (harg4 : arg4.IsWhole) (arg5 : Memref sig .tc .vmem S1x4x256x256 .f32) (harg5 : arg5.IsWhole) (arg6 : Memref sig .tc .vmem S1x4x512x512 .f32) (harg6 : arg6.IsWhole) (x0 : Vec F S1x4x256x256 .f32) (x1 : Vec F S1x4x256x256 .f32) (x2 : Vec F S1x4x256x256 .f32) (x3 : Vec F S1x4x256x256 .f32) :
    out0_A_4 (F := F) c i arg2 harg2 arg3 harg3 arg4 harg4 arg5 harg5 arg6 harg6 x0 x1 x2 x3 = blockImage x0 x1 x2 x3 := by
  funext y
  unfold out0_A_4
  rw [View.read_writes_junk_eq_canon]
  refine View.canon_apply_of_pieces (blockImage x0 x1 x2 x3) _ ?_ y (cover0_A_4 c i arg2 harg2 arg3 harg3 arg4 harg4 arg5 harg5 arg6 harg6 x0 x1 x2 x3 y)
  intro p hp
  unfold kernelRun0_A at hp
  dsimp only at hp
  have h := trips_tile (F := F) Variants.none c none i arg2 harg2 arg3 harg3 arg4 harg4 arg5 harg5 arg6 harg6
    (harg2.unread x0) (harg3.unread x1) (harg4.unread x2) (harg5.unread x3) _ p hp
  unfold IsTile at h
  rw [harg2.read_unread, harg3.read_unread, harg4.read_unread, harg5.read_unread] at h
  exact h

end Cert.KernelIdeal.Pieces

end
-- ==== Proof.KernelImage.lean ====
/-
  The kernel's result array is the image of its four argument arrays.

  The grid has 4 × 16 points; point (b, g) stages block (b, g, 0, 0) of each subband — one batch entry, four
  channels, all 256 × 256 coefficients — and writes back block (b, g, 0, 0) of the result, [1, 4, 512, 512].
  The image is computed position by position from the coefficients of the same batch entry and channel, so the
  image of the four staged blocks IS the corresponding block of the image of the four whole arrays: a block
  position (0, ch, r, s) sits at array position (b, 4 g + ch, r, s), and its source (0, ch, r / 2, s / 2) sits
  at (b, 4 g + ch, r / 2, s / 2).  The 64 result blocks tile the result array, so the array ends holding the
  image everywhere.
-/
import proofs.«171421_j34754875359596_2_alg».proof.Proof.Gen.KernelIdeal.Value
import proofs.«171421_j34754875359596_2_alg».proof.Proof.Pieces

set_option maxRecDepth 16384

noncomputable section

namespace Cert.KernelIdeal.Image

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The image of four [4, 64, 256, 256] arrays: a [4, 64, 512, 512] array. -/
abbrev arrayImage (a0 a1 a2 a3 : S4x64x256x256.Idx → F .f32) : S4x64x512x512.Idx → F .f32 :=
  Cert.Haar.image (B := 4) (C := 64) (H := 256) (W := 256) (H2 := 512) (W2 := 512) rfl rfl a0 a1 a2 a3

/-- The printed index maps over the grid: every subband window moves with the result window on the batch and
    channel axes, all stay at block 0 on the two spatial axes, and the result's block indices fill 4 × 16. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (2 : Fin 4) = 0 ∧ win0_4.index t (3 : Fin 4) = 0
    ∧ win0_4.index t (0 : Fin 4) ≤ 3 ∧ win0_4.index t (1 : Fin 4) ≤ 15 :=
  (by decide +kernel : ∀ t : Fin grid0.N, _)

/-- Every (batch, channel-group) block of the result is some point's. -/
theorem idx_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-- WHAT POINT `t` WRITES BACK is block `t` of the image of the argument arrays as the region finds them. -/
theorem flushed_eq (c : Dev nD) (t : Fin cfg0.N) :
    (dats m 0 c).flushed 4 t
      = ((cfg0.win 4).blk t).view.read (Elt F) (arrayImage (V m c main_arg0) (V m c main_arg1) (V m c main_arg2) (V m c main_arg3)) := by
  rw [Value.flushed4_A, Pieces.out_eq]
  obtain ⟨e00, e01, e02, e03, e10, e11, e12, e13, e20, e21, e22, e23, e30, e31, e32, e33, e42, e43, e40, e41⟩ := idx_facts t
  funext j
  have j0 : (j 0).val < 1 := (j 0).isLt
  have j1 : (j 1).val < 4 := (j 1).isLt
  have j2 : (j 2).val < 512 := (j 2).isLt
  have j3 : (j 3).val < 512 := (j 3).isLt
  -- the block position's source, inside each subband block
  have hs := Cert.Haar.image_apply (F := F) (B := 1) (C := 4) (H := 256) (W := 256) (H2 := 512) (W2 := 512) rfl rfl
    (iblk m c 0 t) (iblk m c 1 t) (iblk m c 2 t) (iblk m c 3 t) j (Pieces.srcBlock j)
    ((j 2).val % 2) ((j 3).val % 2) (by omega) (by omega) rfl rfl
    (by show (j 2).val = 2 * ((j 2).val / 2) + (j 2).val % 2; omega)
    (by show (j 3).val = 2 * ((j 3).val / 2) + (j 3).val % 2; omega)
  refine Eq.trans (b := Cert.Haar.synth ((j 2).val % 2) ((j 3).val % 2)
    (iblk m c 0 t (Pieces.srcBlock j)) (iblk m c 1 t (Pieces.srcBlock j)) (iblk m c 2 t (Pieces.srcBlock j)) (iblk m c 3 t (Pieces.srcBlock j))) hs ?_
  -- the four subband blocks' positions are one position of the arrays
  have h1 : ((cfg0.win 1).blk t).view.emb (Pieces.srcBlock j) = ((cfg0.win 0).blk t).view.emb (Pieces.srcBlock j) := by
    funext a; apply Fin.ext
    match a with
    | ⟨0, _⟩ => show win0_1.index t (0 : Fin 4) * 1 + 1 * (j 0).val = win0_0.index t (0 : Fin 4) * 1 + 1 * (j 0).val; omega
    | ⟨1, _⟩ => show win0_1.index t (1 : Fin 4) * 4 + 1 * (j 1).val = win0_0.index t (1 : Fin 4) * 4 + 1 * (j 1).val; omega
    | ⟨2, _⟩ => show win0_1.index t (2 : Fin 4) * 256 + 1 * ((j 2).val / 2) = win0_0.index t (2 : Fin 4) * 256 + 1 * ((j 2).val / 2); omega
    | ⟨3, _⟩ => show win0_1.index t (3 : Fin 4) * 256 + 1 * ((j 3).val / 2) = win0_0.index t (3 : Fin 4) * 256 + 1 * ((j 3).val / 2); omega
  have h2 : ((cfg0.win 2).blk t).view.emb (Pieces.srcBlock j) = ((cfg0.win 0).blk t).view.emb (Pieces.srcBlock j) := by
    funext a; apply Fin.ext
    match a with
    | ⟨0, _⟩ => show win0_2.index t (0 : Fin 4) * 1 + 1 * (j 0).val = win0_0.index t (0 : Fin 4) * 1 + 1 * (j 0).val; omega
    | ⟨1, _⟩ => show win0_2.index t (1 : Fin 4) * 4 + 1 * (j 1).val = win0_0.index t (1 : Fin 4) * 4 + 1 * (j 1).val; omega
    | ⟨2, _⟩ => show win0_2.index t (2 : Fin 4) * 256 + 1 * ((j 2).val / 2) = win0_0.index t (2 : Fin 4) * 256 + 1 * ((j 2).val / 2); omega
    | ⟨3, _⟩ => show win0_2.index t (3 : Fin 4) * 256 + 1 * ((j 3).val / 2) = win0_0.index t (3 : Fin 4) * 256 + 1 * ((j 3).val / 2); omega
  have h3 : ((cfg0.win 3).blk t).view.emb (Pieces.srcBlock j) = ((cfg0.win 0).blk t).view.emb (Pieces.srcBlock j) := by
    funext a; apply Fin.ext
    match a with
    | ⟨0, _⟩ => show win0_3.index t (0 : Fin 4) * 1 + 1 * (j 0).val = win0_0.index t (0 : Fin 4) * 1 + 1 * (j 0).val; omega
    | ⟨1, _⟩ => show win0_3.index t (1 : Fin 4) * 4 + 1 * (j 1).val = win0_0.index t (1 : Fin 4) * 4 + 1 * (j 1).val; omega
    | ⟨2, _⟩ => show win0_3.index t (2 : Fin 4) * 256 + 1 * ((j 2).val / 2) = win0_0.index t (2 : Fin 4) * 256 + 1 * ((j 2).val / 2); omega
    | ⟨3, _⟩ => show win0_3.index t (3 : Fin 4) * 256 + 1 * ((j 3).val / 2) = win0_0.index t (3 : Fin 4) * 256 + 1 * ((j 3).val / 2); omega
  show Cert.Haar.synth ((j 2).val % 2) ((j 3).val % 2)
      (V m c main_arg0 (((cfg0.win 0).blk t).view.emb (Pieces.srcBlock j)))
      (V m c main_arg1 (((cfg0.win 1).blk t).view.emb (Pieces.srcBlock j)))
      (V m c main_arg2 (((cfg0.win 2).blk t).view.emb (Pieces.srcBlock j)))
      (V m c main_arg3 (((cfg0.win 3).blk t).view.emb (Pieces.srcBlock j)))
    = arrayImage (V m c main_arg0) (V m c main_arg1) (V m c main_arg2) (V m c main_arg3) (((cfg0.win 4).blk t).view.emb j)
  rw [h1, h2, h3]
  refine (Cert.Haar.image_apply (F := F) rfl rfl
    (V m c main_arg0) (V m c main_arg1) (V m c main_arg2) (V m c main_arg3)
    (((cfg0.win 4).blk t).view.emb j) (((cfg0.win 0).blk t).view.emb (Pieces.srcBlock j))
    ((j 2).val % 2) ((j 3).val % 2) (by omega) (by omega) ?_ ?_ ?_ ?_).symm
  · show win0_0.index t (0 : Fin 4) * 1 + 1 * (j 0).val = win0_4.index t (0 : Fin 4) * 1 + 1 * (j 0).val; omega
  · show win0_0.index t (1 : Fin 4) * 4 + 1 * (j 1).val = win0_4.index t (1 : Fin 4) * 4 + 1 * (j 1).val; omega
  · show win0_4.index t (2 : Fin 4) * 512 + 1 * (j 2).val = 2 * (win0_0.index t (2 : Fin 4) * 256 + 1 * ((j 2).val / 2)) + (j 2).val % 2; omega
  · show win0_4.index t (3 : Fin 4) * 512 + 1 * (j 3).val = 2 * (win0_0.index t (3 : Fin 4) * 256 + 1 * ((j 3).val / 2)) + (j 3).val % 2; omega

/-- An array position is in point `t`'s result block iff each coordinate is in the block's range on its axis. -/
theorem mem_blk (t : Fin cfg0.N) (i : S4x64x512x512.Idx) :
    i ∈ ((cfg0.win 4).blk t).view.set ↔ ∀ a : Fin 4, win0_4.index t a * S1x4x512x512.size a ≤ (i a).val
      ∧ (i a).val < win0_4.index t a * S1x4x512x512.size a + S1x4x512x512.size a := by
  show i ∈ ((View.whole main_v0).slice (win0_4.rect t)).set ↔ _
  rw [View.set_slice_whole, Rect.mem_set_unit]
  exact Iff.rfl

/-- The result blocks cover the result array: position (b, ch, r, s) is in the block of the point whose block
    index is (b, ch / 4, 0, 0). -/
theorem cover (i : S4x64x512x512.Idx) :
    ∃ t : Fin cfg0.N, (cfg0.win 4).flush t = true ∧ i ∈ ((cfg0.win 4).blk t).view.set := by
  have hi0 : (i 0).val < 4 := (i 0).isLt
  have hi1 : (i 1).val < 64 := (i 1).isLt
  have hi2 : (i 2).val < 512 := (i 2).isLt
  have hi3 : (i 3).val < 512 := (i 3).isLt
  obtain ⟨t, ht⟩ := idx_onto ⟨(i 0).val, hi0⟩ ⟨(i 1).val / 4, by omega⟩
  have q0 : win0_4.index t (0 : Fin 4) = (i 0).val := congrFun ht 0
  have q1 : win0_4.index t (1 : Fin 4) = (i 1).val / 4 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 512 ≤ (i 2).val ∧ (i 2).val < win0_4.index t (2 : Fin 4) * 512 + 512; omega
  | ⟨3, _⟩ => show win0_4.index t (3 : Fin 4) * 512 ≤ (i 3).val ∧ (i 3).val < win0_4.index t (3 : Fin 4) * 512 + 512; omega

/-- THE RESULT ARRAY after the run: the image of the four argument arrays. -/
theorem final (c : Dev nD) :
    (dats m 0 c).arrAt 4 cfg0.N
      = arrayImage (m ((c : Thread nD τ).loc main_arg0)) (m ((c : Thread nD τ).loc main_arg1))
          (m ((c : Thread nD τ).loc main_arg2)) (m ((c : Thread nD τ).loc main_arg3)) :=
  (dats m 0 c).arrAt_eq_of_cover 4
    (arrayImage (V m c main_arg0) (V m c main_arg1) (V m c main_arg2) (V m c main_arg3))
    (fun t _ => flushed_eq m c t) cover

/-- The kernel's run with its result read: every weakly fair execution ends with the result array at the image of
    the argument arrays and the arguments unchanged. -/
theorem run : θ_run defs (onTc (τ := τ) (main (F := F))) ⟨m, fun _ => 0, ρ⟩ fun r => ∀ c : Dev nD,
      r.2.mem ((c : Thread nD τ).loc main_v0)
        = arrayImage (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Image

end
-- ==== Proof.RefRun.lean ====
/-
  The reference's run, read window by window.

  The reference is a straight line of thirty-six whole-array operations: twenty-four pointwise ones that form the
  four synthesis combinations (each a sum or difference of the four subbands times one half), then three groups
  of four that lay them out — the first pairs the even-row combinations column by column, the second the odd-row
  combinations, the third pairs the two results row by row.  Every weakly fair execution of such a line
  terminates with each buffer at the fold of the operations' results over the launch contents (the library's
  theorem for a straight line).  The fold is read here in four windows: the contents after a window are a
  function of the contents before it, a buffer a window does not write keeps its contents through it, and each
  window's results are read from the previous window's, so that no step mentions more than a window's
  operations.  The two pairing functions are named, so that their operands are plain arguments that can be
  rewritten where they stand.

  The result: the last buffer ends at the composed stages (`ReadP.val_main_v31`) of the four argument arrays,
  and the arguments are unchanged.
-/
import proofs.«171421_j34754875359596_2_alg».proof.Proof.Gen.ReferenceIdeal
import proofs.«171421_j34754875359596_2_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Pairing two [4, 64, 256, 256, 1] arrays along their last axis. -/
def pairCols : (⟨S4x64x256x256x1, .f32⟩ : BufTy).Contents (Elt F) → (⟨S4x64x256x256x1, .f32⟩ : BufTy).Contents (Elt F) → (⟨S4x64x256x256x2, .f32⟩ : BufTy).Contents (Elt F) :=
  fun a b => concatenate S4x64x256x256x2 4 [⟨S4x64x256x256x1, a⟩, ⟨S4x64x256x256x1, b⟩] concatenates_S4x64x256x256x1_S4x64x256x256x1_S4x64x256x256x2_d4

/-- Pairing two [4, 64, 256, 1, 512] arrays along their fourth axis. -/
def pairRows : (⟨S4x64x256x1x512, .f32⟩ : BufTy).Contents (Elt F) → (⟨S4x64x256x1x512, .f32⟩ : BufTy).Contents (Elt F) → (⟨S4x64x256x2x512, .f32⟩ : BufTy).Contents (Elt F) :=
  fun a b => concatenate S4x64x256x2x512 3 [⟨S4x64x256x1x512, a⟩, ⟨S4x64x256x1x512, b⟩] concatenates_S4x64x256x1x512_S4x64x256x1x512_S4x64x256x2x512_d3

/-- Window 0: the twenty-four pointwise operations: the four synthesis combinations. -/
abbrev ops_part0 : List (HloOp τ sig (Elt F)) :=
  [ binary main_arg0 main_arg1 main_v0 (addf : (⟨S4x64x256x256, .f32⟩ : BufTy).Contents (Elt F) → (⟨S4x64x256x256, .f32⟩ : BufTy).Contents (Elt F) → (⟨S4x64x256x256, .f32⟩ : BufTy).Contents (Elt F)),
    binary main_v0 main_arg2 main_v1 (addf : (⟨S4x64x256x256, .f32⟩ : BufTy).Contents (Elt F) → (⟨S4x64x256x256, .f32⟩ : BufTy).Contents (Elt F) → (⟨S4x64x256x256, .f32⟩ : BufTy).Contents (Elt F)),
    binary main_v1 main_arg3 main_v2 (addf : (⟨S4x64x256x256, .f32⟩ : BufTy).Contents (Elt F) → (⟨S4x64x256x256, .f32⟩ : BufTy).Contents (Elt F) → (⟨S4x64x256x256, .f32⟩ : BufTy).Contents (Elt F)),
    nullary main_cst (constant S_ .f32 0x3F000000#32),
    unary main_cst main_v3 (broadcastInDim S4x64x256x256 ![] bcast_S_S4x64x256x256 : (⟨S_, .f32⟩ : BufTy).Contents (Elt F) → (⟨S4x64x256x256, .f32⟩ : BufTy).Contents (Elt F)),
    binary main_v2 main_v3 main_v4 (mulf : (⟨S4x64x256x256, .f32⟩ : BufTy).Contents (Elt F) → (⟨S4x64x256x256, .f32⟩ : BufTy).Contents (Elt F) → (⟨S4x64x256x256, .f32⟩ : BufTy).Contents (Elt F)),
    binary main_arg0 main_arg1 main_v5 (addf : (⟨S4x64x256x256, .f32⟩ : BufTy).Contents (Elt F) → (⟨S4x64x256x256, .f32⟩ : BufTy).Contents (Elt F) → (⟨S4x64x256x256, .f32⟩ : BufTy).Contents (Elt F)),
    binary main_v5 main_arg2 main_v6 (subf : (⟨S4x64x256x256, .f32⟩ : BufTy).Contents (Elt F) → (⟨S4x64x256x256, .f32⟩ : BufTy).Contents (Elt F) → (⟨S4x64x256x256, .f32⟩ : BufTy).Contents (Elt F)),
    binary main_v6 main_arg3 main_v7 (subf : (⟨S4x64x256x256, .f32⟩ : BufTy).Contents (Elt F) → (⟨S4x64x256x256, .f32⟩ : BufTy).Contents (Elt F) → (⟨S4x64x256x256, .f32⟩ : BufTy).Contents (Elt F)),
    nullary main_cst_0 (constant S_ .f32 0x3F000000#32),
    unary main_cst_0 main_v8 (broadcastInDim S4x64x256x256 ![] bcast_S_S4x64x256x256 : (⟨S_, .f32⟩ : BufTy).Contents (Elt F) → (⟨S4x64x256x256, .f32⟩ : BufTy).Contents (Elt F)),
    binary main_v7 main_v8 main_v9 (mulf : (⟨S4x64x256x256, .f32⟩ : BufTy).Contents (Elt F) → (⟨S4x64x256x256, .f32⟩ : BufTy).Contents (Elt F) → (⟨S4x64x256x256, .f32⟩ : BufTy).Contents (Elt F)),
    binary main_arg0 main_arg1 main_v10 (subf : (⟨S4x64x256x256, .f32⟩ : BufTy).Contents (Elt F) → (⟨S4x64x256x256, .f32⟩ : BufTy).Contents (Elt F) → (⟨S4x64x256x256, .f32⟩ : BufTy).Contents (Elt F)),
    binary main_v10 main_arg2 main_v11 (addf : (⟨S4x64x256x256, .f32⟩ : BufTy).Contents (Elt F) → (⟨S4x64x256x256, .f32⟩ : BufTy).Contents (Elt F) → (⟨S4x64x256x256, .f32⟩ : BufTy).Contents (Elt F)),
    binary main_v11 main_arg3 main_v12 (subf : (⟨S4x64x256x256, .f32⟩ : BufTy).Contents (Elt F) → (⟨S4x64x256x256, .f32⟩ : BufTy).Contents (Elt F) → (⟨S4x64x256x256, .f32⟩ : BufTy).Contents (Elt F)),
    nullary main_cst_1 (constant S_ .f32 0x3F000000#32),
    unary main_cst_1 main_v13 (broadcastInDim S4x64x256x256 ![] bcast_S_S4x64x256x256 : (⟨S_, .f32⟩ : BufTy).Contents (Elt F) → (⟨S4x64x256x256, .f32⟩ : BufTy).Contents (Elt F)),
    binary main_v12 main_v13 main_v14 (mulf : (⟨S4x64x256x256, .f32⟩ : BufTy).Contents (Elt F) → (⟨S4x64x256x256, .f32⟩ : BufTy).Contents (Elt F) → (⟨S4x64x256x256, .f32⟩ : BufTy).Contents (Elt F)),
    binary main_arg0 main_arg1 main_v15 (subf : (⟨S4x64x256x256, .f32⟩ : BufTy).Contents (Elt F) → (⟨S4x64x256x256, .f32⟩ : BufTy).Contents (Elt F) → (⟨S4x64x256x256, .f32⟩ : BufTy).Contents (Elt F)),
    binary main_v15 main_arg2 main_v16 (subf : (⟨S4x64x256x256, .f32⟩ : BufTy).Contents (Elt F) → (⟨S4x64x256x256, .f32⟩ : BufTy).Contents (Elt F) → (⟨S4x64x256x256, .f32⟩ : BufTy).Contents (Elt F)),
    binary main_v16 main_arg3 main_v17 (addf : (⟨S4x64x256x256, .f32⟩ : BufTy).Contents (Elt F) → (⟨S4x64x256x256, .f32⟩ : BufTy).Contents (Elt F) → (⟨S4x64x256x256, .f32⟩ : BufTy).Contents (Elt F)),
    nullary main_cst_2 (constant S_ .f32 0x3F000000#32),
    unary main_cst_2 main_v18 (broadcastInDim S4x64x256x256 ![] bcast_S_S4x64x256x256 : (⟨S_, .f32⟩ : BufTy).Contents (Elt F) → (⟨S4x64x256x256, .f32⟩ : BufTy).Contents (Elt F)),
    binary main_v17 main_v18 main_v19 (mulf : (⟨S4x64x256x256, .f32⟩ : BufTy).Contents (Elt F) → (⟨S4x64x256x256, .f32⟩ : BufTy).Contents (Elt F) → (⟨S4x64x256x256, .f32⟩ : BufTy).Contents (Elt F)) ]

/-- Window 1: the even-row combinations paired column by column. -/
abbrev ops_part1 : List (HloOp τ sig (Elt F)) :=
  [ unary main_v4 main_v20 (broadcastInDim S4x64x256x256x1 ![0, 1, 2, 3] bcast_S4x64x256x256_S4x64x256x256x1_0_1_2_3 : (⟨S4x64x256x256, .f32⟩ : BufTy).Contents (Elt F) → (⟨S4x64x256x256x1, .f32⟩ : BufTy).Contents (Elt F)),
    unary main_v9 main_v21 (broadcastInDim S4x64x256x256x1 ![0, 1, 2, 3] bcast_S4x64x256x256_S4x64x256x256x1_0_1_2_3 : (⟨S4x64x256x256, .f32⟩ : BufTy).Contents (Elt F) → (⟨S4x64x256x256x1, .f32⟩ : BufTy).Contents (Elt F)),
    binary main_v20 main_v21 main_v22 ((pairCols (F := F)) : (⟨S4x64x256x256x1, .f32⟩ : BufTy).Contents (Elt F) → (⟨S4x64x256x256x1, .f32⟩ : BufTy).Contents (Elt F) → (⟨S4x64x256x256x2, .f32⟩ : BufTy).Contents (Elt F)),
    reshape main_v22 main_v23 rfl shapeCasts_S4x64x256x256x2_S4x64x256x512 ]

/-- Window 2: the odd-row combinations paired column by column. -/
abbrev ops_part2 : List (HloOp τ sig (Elt F)) :=
  [ unary main_v14 main_v24 (broadcastInDim S4x64x256x256x1 ![0, 1, 2, 3] bcast_S4x64x256x256_S4x64x256x256x1_0_1_2_3 : (⟨S4x64x256x256, .f32⟩ : BufTy).Contents (Elt F) → (⟨S4x64x256x256x1, .f32⟩ : BufTy).Contents (Elt F)),
    unary main_v19 main_v25 (broadcastInDim S4x64x256x256x1 ![0, 1, 2, 3] bcast_S4x64x256x256_S4x64x256x256x1_0_1_2_3 : (⟨S4x64x256x256, .f32⟩ : BufTy).Contents (Elt F) → (⟨S4x64x256x256x1, .f32⟩ : BufTy).Contents (Elt F)),
    binary main_v24 main_v25 main_v26 ((pairCols (F := F)) : (⟨S4x64x256x256x1, .f32⟩ : BufTy).Contents (Elt F) → (⟨S4x64x256x256x1, .f32⟩ : BufTy).Contents (Elt F) → (⟨S4x64x256x256x2, .f32⟩ : BufTy).Contents (Elt F)),
    reshape main_v26 main_v27 rfl shapeCasts_S4x64x256x256x2_S4x64x256x512 ]

/-- Window 3: the two paired arrays paired row by row. -/
abbrev ops_part3 : List (HloOp τ sig (Elt F)) :=
  [ unary main_v23 main_v28 (broadcastInDim S4x64x256x1x512 ![0, 1, 2, 4] bcast_S4x64x256x512_S4x64x256x1x512_0_1_2_4 : (⟨S4x64x256x512, .f32⟩ : BufTy).Contents (Elt F) → (⟨S4x64x256x1x512, .f32⟩ : BufTy).Contents (Elt F)),
    unary main_v27 main_v29 (broadcastInDim S4x64x256x1x512 ![0, 1, 2, 4] bcast_S4x64x256x512_S4x64x256x1x512_0_1_2_4 : (⟨S4x64x256x512, .f32⟩ : BufTy).Contents (Elt F) → (⟨S4x64x256x1x512, .f32⟩ : BufTy).Contents (Elt F)),
    binary main_v28 main_v29 main_v30 ((pairRows (F := F)) : (⟨S4x64x256x1x512, .f32⟩ : BufTy).Contents (Elt F) → (⟨S4x64x256x1x512, .f32⟩ : BufTy).Contents (Elt F) → (⟨S4x64x256x2x512, .f32⟩ : BufTy).Contents (Elt F)),
    reshape main_v30 main_v31 rfl shapeCasts_S4x64x256x2x512_S4x64x512x512 ]

/-- The reference's thirty-six operations, in order. -/
abbrev ops : List (HloOp τ sig (Elt F)) :=
  ops_part0 ++ (ops_part1 ++ (ops_part2 ++ (ops_part3)))

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part1_sub : (ops_part1 : List (HloOp τ sig (Elt F))).Forall fun op => op.bufs ⊆ tcRefs τ sig :=
  ⟨unary_bufs_sub .., unary_bufs_sub .., binary_bufs_sub .., reshape_bufs_sub ..⟩
set_option maxRecDepth 8192 in
theorem ops_part2_sub : (ops_part2 : List (HloOp τ sig (Elt F))).Forall fun op => op.bufs ⊆ tcRefs τ sig :=
  ⟨unary_bufs_sub .., unary_bufs_sub .., binary_bufs_sub .., reshape_bufs_sub ..⟩
set_option maxRecDepth 8192 in
theorem ops_part3_sub : (ops_part3 : List (HloOp τ sig (Elt F))).Forall fun op => op.bufs ⊆ tcRefs τ sig :=
  ⟨unary_bufs_sub .., unary_bufs_sub .., binary_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h, List.forall_iff_forall_mem.mp ops_part2_sub op h, List.forall_iff_forall_mem.mp ops_part3_sub op h]

/-! ## The contents window by window -/

/-- The device's buffer contents after window 0. -/
def val1 (V0 : Valuation τ sig (Elt F)) : Valuation τ sig (Elt F) := after ops_part0 V0
/-- The buffers window 0 writes. -/
abbrev ops_part0_W : List (Ref sig .tc) := [main_v0, main_v1, main_v2, main_cst, main_v3, main_v4, main_v5, main_v6, main_v7, main_cst_0, main_v8, main_v9, main_v10, main_v11, main_v12, main_cst_1, main_v13, main_v14, main_v15, main_v16, main_v17, main_cst_2, main_v18, main_v19]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 0 does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
set_option maxRecDepth 8192 in
set_option maxHeartbeats 2000000 in
theorem val1_main_v4 (V0 : Valuation τ sig (Elt F)) : val1 V0 (no_index (Proc.devRef .tc main_v4)) = ReadP.val_main_v4 (F := F) (V0 (Proc.devRef .tc main_arg0)) (V0 (Proc.devRef .tc main_arg1)) (V0 (Proc.devRef .tc main_arg2)) (V0 (Proc.devRef .tc main_arg3)) := by
  unfold val1
  simp only [ops_part0]
  after_results_simp
  all_goals rfl
set_option maxRecDepth 8192 in
set_option maxHeartbeats 2000000 in
theorem val1_main_v9 (V0 : Valuation τ sig (Elt F)) : val1 V0 (no_index (Proc.devRef .tc main_v9)) = ReadP.val_main_v9 (F := F) (V0 (Proc.devRef .tc main_arg0)) (V0 (Proc.devRef .tc main_arg1)) (V0 (Proc.devRef .tc main_arg2)) (V0 (Proc.devRef .tc main_arg3)) := by
  unfold val1
  simp only [ops_part0]
  after_results_simp
  all_goals rfl
set_option maxRecDepth 8192 in
set_option maxHeartbeats 2000000 in
theorem val1_main_v14 (V0 : Valuation τ sig (Elt F)) : val1 V0 (no_index (Proc.devRef .tc main_v14)) = ReadP.val_main_v14 (F := F) (V0 (Proc.devRef .tc main_arg0)) (V0 (Proc.devRef .tc main_arg1)) (V0 (Proc.devRef .tc main_arg2)) (V0 (Proc.devRef .tc main_arg3)) := by
  unfold val1
  simp only [ops_part0]
  after_results_simp
  all_goals rfl
set_option maxRecDepth 8192 in
set_option maxHeartbeats 2000000 in
theorem val1_main_v19 (V0 : Valuation τ sig (Elt F)) : val1 V0 (no_index (Proc.devRef .tc main_v19)) = ReadP.val_main_v19 (F := F) (V0 (Proc.devRef .tc main_arg0)) (V0 (Proc.devRef .tc main_arg1)) (V0 (Proc.devRef .tc main_arg2)) (V0 (Proc.devRef .tc main_arg3)) := by
  unfold val1
  simp only [ops_part0]
  after_results_simp
  all_goals rfl

/-- The device's buffer contents after window 1. -/
def val2 (V0 : Valuation τ sig (Elt F)) : Valuation τ sig (Elt F) := after ops_part1 (val1 V0)
/-- The buffers window 1 writes. -/
abbrev ops_part1_W : List (Ref sig .tc) := [main_v20, main_v21, main_v22, main_v23]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v14 (V0 : Valuation τ sig (Elt F)) : val2 V0 (no_index (Proc.devRef .tc main_v14)) = ReadP.val_main_v14 (F := F) (V0 (Proc.devRef .tc main_arg0)) (V0 (Proc.devRef .tc main_arg1)) (V0 (Proc.devRef .tc main_arg2)) (V0 (Proc.devRef .tc main_arg3)) :=
  (val2_keep V0 main_v14 (by decide)).trans (val1_main_v14 V0)
theorem val2_main_v19 (V0 : Valuation τ sig (Elt F)) : val2 V0 (no_index (Proc.devRef .tc main_v19)) = ReadP.val_main_v19 (F := F) (V0 (Proc.devRef .tc main_arg0)) (V0 (Proc.devRef .tc main_arg1)) (V0 (Proc.devRef .tc main_arg2)) (V0 (Proc.devRef .tc main_arg3)) :=
  (val2_keep V0 main_v19 (by decide)).trans (val1_main_v19 V0)
set_option maxRecDepth 8192 in
set_option maxHeartbeats 2000000 in
theorem val2_main_v23 (V0 : Valuation τ sig (Elt F)) : val2 V0 (no_index (Proc.devRef .tc main_v23)) = ReadP.val_main_v23 (F := F) (V0 (Proc.devRef .tc main_arg0)) (V0 (Proc.devRef .tc main_arg1)) (V0 (Proc.devRef .tc main_arg2)) (V0 (Proc.devRef .tc main_arg3)) := by
  unfold val2
  simp only [ops_part1]
  after_results_simp
  simp only [val1_main_v4, val1_main_v9] <;> rfl

/-- The device's buffer contents after window 2. -/
def val3 (V0 : Valuation τ sig (Elt F)) : Valuation τ sig (Elt F) := after ops_part2 (val2 V0)
/-- The buffers window 2 writes. -/
abbrev ops_part2_W : List (Ref sig .tc) := [main_v24, main_v25, main_v26, main_v27]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v23 (V0 : Valuation τ sig (Elt F)) : val3 V0 (no_index (Proc.devRef .tc main_v23)) = ReadP.val_main_v23 (F := F) (V0 (Proc.devRef .tc main_arg0)) (V0 (Proc.devRef .tc main_arg1)) (V0 (Proc.devRef .tc main_arg2)) (V0 (Proc.devRef .tc main_arg3)) :=
  (val3_keep V0 main_v23 (by decide)).trans (val2_main_v23 V0)
set_option maxRecDepth 8192 in
set_option maxHeartbeats 2000000 in
theorem val3_main_v27 (V0 : Valuation τ sig (Elt F)) : val3 V0 (no_index (Proc.devRef .tc main_v27)) = ReadP.val_main_v27 (F := F) (V0 (Proc.devRef .tc main_arg0)) (V0 (Proc.devRef .tc main_arg1)) (V0 (Proc.devRef .tc main_arg2)) (V0 (Proc.devRef .tc main_arg3)) := by
  unfold val3
  simp only [ops_part2]
  after_results_simp
  simp only [val2_main_v14, val2_main_v19] <;> rfl

/-- The device's buffer contents after window 3. -/
def val4 (V0 : Valuation τ sig (Elt F)) : Valuation τ sig (Elt F) := after ops_part3 (val3 V0)
/-- The buffers window 3 writes. -/
abbrev ops_part3_W : List (Ref sig .tc) := [main_v28, main_v29, main_v30, main_v31]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
set_option maxRecDepth 8192 in
set_option maxHeartbeats 2000000 in
theorem val4_main_v31 (V0 : Valuation τ sig (Elt F)) : val4 V0 (no_index (Proc.devRef .tc main_v31)) = ReadP.val_main_v31 (F := F) (V0 (Proc.devRef .tc main_arg0)) (V0 (Proc.devRef .tc main_arg1)) (V0 (Proc.devRef .tc main_arg2)) (V0 (Proc.devRef .tc main_arg3)) := by
  unfold val4
  simp only [ops_part3]
  after_results_simp
  simp only [val3_main_v23, val3_main_v27] <;> rfl

theorem after_ops (V0 : Valuation τ sig (Elt F)) : after ops V0 = val4 V0 := by
  simp only [ops, StableHlo.after_append]
  rfl

/-- On every device, for any float values, from any memory with zero counters: every weakly fair execution of the
    reference terminates with its result at the composed stages of the four argument arrays and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = ReadP.val_main_v31 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (by simp only [after_ops]; exact val4_main_v31 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c))⟩)
    (run_seq scopedRefs_eq scopedSems_eq defs main (fun _ => ops) main_eq (fun _ => ops_sub) m ρ)

end Cert.ReferenceIdeal.RunP

end
-- ==== Proof.RefImage.lean ====
/-
  The reference program computes the inverse two-dimensional Haar transform.

  The reference forms four whole arrays of extents [4, 64, 256, 256] from the subbands, one per parity pair
  (row parity p, column parity q), each by the synthesis formula of that pair.  It then interleaves them:
  the two arrays of one row parity are stacked on a new last axis and reshaped, which puts the array of
  column parity q at the columns 2 j + q; the two results are stacked on a new axis before the columns
  and reshaped, which puts the array of row parity p at the rows 2 i + p.  Read at an index, every
  stack is a two-piece concatenation of pieces of extent one on the joined axis, so the coordinate on
  that axis (0 or 1) names the piece; every reshape keeps the row-major position, so its source
  coordinates are quotients and remainders of that position, which reduce to halves and parities of
  the row and the column.  Chaining these readings from the output back to the subbands gives the
  image of Haar.lean at every index.
-/
import proofs.«171421_j34754875359596_2_alg».proof.Proof.RefRead
import proofs.«171421_j34754875359596_2_alg».proof.Proof.Haar
import Idealize.ShloMosaic.Lib.Pipeline.Value
import Idealize.ShloMosaic.Lib.ValueIdx

noncomputable section

namespace Cert.ReferenceIdeal.Image

open Cert.ReferenceIdeal Cert.ReferenceIdeal.Gen Cert.ReferenceIdeal.ReadP Cert.Haar
open Idealize.ShloMosaic Idealize.ShloMosaic.ValueIdx

variable {F : FTy → Type} [FloatOps F]

/-! ## The four whole arrays, at an index -/

/-- The array of even rows and even columns. -/
theorem v4_at (x0 x1 x2 x3 : (⟨S4x64x256x256, .f32⟩ : BufTy).Contents (Elt F)) (k : S4x64x256x256.Idx) :
    val_main_v4 (F := F) x0 x1 x2 x3 k = synth 0 0 (x0 k) (x1 k) (x2 k) (x3 k) := by
  rw [val_main_v4_apply, val_main_v2_apply, val_main_v1_apply, val_main_v0_apply, val_main_v3_apply,
    val_main_cst_apply]
  rfl

/-- The array of even rows and odd columns. -/
theorem v9_at (x0 x1 x2 x3 : (⟨S4x64x256x256, .f32⟩ : BufTy).Contents (Elt F)) (k : S4x64x256x256.Idx) :
    val_main_v9 (F := F) x0 x1 x2 x3 k = synth 0 1 (x0 k) (x1 k) (x2 k) (x3 k) := by
  rw [val_main_v9_apply, val_main_v7_apply, val_main_v6_apply, val_main_v5_apply, val_main_v8_apply,
    val_main_cst_0_apply]
  rfl

/-- The array of odd rows and even columns. -/
theorem v14_at (x0 x1 x2 x3 : (⟨S4x64x256x256, .f32⟩ : BufTy).Contents (Elt F)) (k : S4x64x256x256.Idx) :
    val_main_v14 (F := F) x0 x1 x2 x3 k = synth 1 0 (x0 k) (x1 k) (x2 k) (x3 k) := by
  rw [val_main_v14_apply, val_main_v12_apply, val_main_v11_apply, val_main_v10_apply, val_main_v13_apply,
    val_main_cst_1_apply]
  rfl

/-- The array of odd rows and odd columns. -/
theorem v19_at (x0 x1 x2 x3 : (⟨S4x64x256x256, .f32⟩ : BufTy).Contents (Elt F)) (k : S4x64x256x256.Idx) :
    val_main_v19 (F := F) x0 x1 x2 x3 k = synth 1 1 (x0 k) (x1 k) (x2 k) (x3 k) := by
  rw [val_main_v19_apply, val_main_v17_apply, val_main_v16_apply, val_main_v15_apply, val_main_v18_apply,
    val_main_cst_2_apply]
  rfl

/-! ## The two stacks, at an index

A stack of two arrays on a new axis is a concatenation of two pieces whose extent on that axis is one: the
coordinate on the axis, 0 or 1, names the piece, and the piece is read at the same other coordinates. -/

section Stack
variable {α : Type}

/-- The stack on a new last axis, at last coordinate 0: the first piece. -/
theorem cat4_left (y0 y1 : S4x64x256x256x1.Idx → α) (a : Fin 4) (b : Fin 64) (c : Fin 256) (d : Fin 256) (q : Fin 2)
    (hq : q.val = 0) :
    concatenate S4x64x256x256x2 4 [⟨S4x64x256x256x1, y0⟩, ⟨S4x64x256x256x1, y1⟩]
        concatenates_S4x64x256x256x1_S4x64x256x256x1_S4x64x256x256x2_d4 (ix5 a b c d q)
      = y0 (ix5 a b c d (0 : Fin 1)) := by
  refine concatenate_pair_apply_left (t := S4x64x256x256x2) (s₁ := S4x64x256x256x1) (s₂ := S4x64x256x256x1)
    (4 : Fin 5) y0 y1 _ (ix5 a b c d q) rfl (ix5 a b c d (0 : Fin 1)) ?_
  intro e
  match e with
  | ⟨0, _⟩ => rfl
  | ⟨1, _⟩ => rfl
  | ⟨2, _⟩ => rfl
  | ⟨3, _⟩ => rfl
  | ⟨4, _⟩ => show 0 = q.val; omega

/-- The stack on a new last axis, at last coordinate 1: the second piece. -/
theorem cat4_right (y0 y1 : S4x64x256x256x1.Idx → α) (a : Fin 4) (b : Fin 64) (c : Fin 256) (d : Fin 256) (q : Fin 2)
    (hq : q.val = 1) :
    concatenate S4x64x256x256x2 4 [⟨S4x64x256x256x1, y0⟩, ⟨S4x64x256x256x1, y1⟩]
        concatenates_S4x64x256x256x1_S4x64x256x256x1_S4x64x256x256x2_d4 (ix5 a b c d q)
      = y1 (ix5 a b c d (0 : Fin 1)) := by
  refine concatenate_pair_apply_right (t := S4x64x256x256x2) (s₁ := S4x64x256x256x1) (s₂ := S4x64x256x256x1)
    (4 : Fin 5) y0 y1 _ (ix5 a b c d q) rfl rfl (ix5 a b c d (0 : Fin 1)) ?_ ?_
  · intro e he
    match e with
    | ⟨0, _⟩ => rfl
    | ⟨1, _⟩ => rfl
    | ⟨2, _⟩ => rfl
    | ⟨3, _⟩ => rfl
    | ⟨4, _⟩ => exact absurd rfl he
  · show 0 + 1 = q.val; omega

/-- The stack on a new axis before the columns, at coordinate 0 on that axis: the first piece. -/
theorem cat3_left (y0 y1 : S4x64x256x1x512.Idx → α) (a : Fin 4) (b : Fin 64) (c : Fin 256) (p : Fin 2) (s : Fin 512)
    (hp : p.val = 0) :
    concatenate S4x64x256x2x512 3 [⟨S4x64x256x1x512, y0⟩, ⟨S4x64x256x1x512, y1⟩]
        concatenates_S4x64x256x1x512_S4x64x256x1x512_S4x64x256x2x512_d3 (ix5 a b c p s)
      = y0 (ix5 a b c (0 : Fin 1) s) := by
  refine concatenate_pair_apply_left (t := S4x64x256x2x512) (s₁ := S4x64x256x1x512) (s₂ := S4x64x256x1x512)
    (3 : Fin 5) y0 y1 _ (ix5 a b c p s) rfl (ix5 a b c (0 : Fin 1) s) ?_
  intro e
  match e with
  | ⟨0, _⟩ => rfl
  | ⟨1, _⟩ => rfl
  | ⟨2, _⟩ => rfl
  | ⟨3, _⟩ => show 0 = p.val; omega
  | ⟨4, _⟩ => rfl

/-- The stack on a new axis before the columns, at coordinate 1 on that axis: the second piece. -/
theorem cat3_right (y0 y1 : S4x64x256x1x512.Idx → α) (a : Fin 4) (b : Fin 64) (c : Fin 256) (p : Fin 2) (s : Fin 512)
    (hp : p.val = 1) :
    concatenate S4x64x256x2x512 3 [⟨S4x64x256x1x512, y0⟩, ⟨S4x64x256x1x512, y1⟩]
        concatenates_S4x64x256x1x512_S4x64x256x1x512_S4x64x256x2x512_d3 (ix5 a b c p s)
      = y1 (ix5 a b c (0 : Fin 1) s) := by
  refine concatenate_pair_apply_right (t := S4x64x256x2x512) (s₁ := S4x64x256x1x512) (s₂ := S4x64x256x1x512)
    (3 : Fin 5) y0 y1 _ (ix5 a b c p s) rfl rfl (ix5 a b c (0 : Fin 1) s) ?_ ?_
  · intro e he
    match e with
    | ⟨0, _⟩ => rfl
    | ⟨1, _⟩ => rfl
    | ⟨2, _⟩ => rfl
    | ⟨3, _⟩ => exact absurd rfl he
    | ⟨4, _⟩ => rfl
  · show 0 + 1 = p.val; omega

end Stack

/-! ## The source index of each layout operation, in coordinates -/

/-- Dropping the unit last axis. -/
theorem idx20_ix (a : Fin 4) (b : Fin 64) (c : Fin 256) (d : Fin 256) (z : Fin 1) :
    idx_main_v20 (ix5 a b c d z) = ix4 a b c d := by
  funext e
  match e with
  | ⟨0, _⟩ => rfl
  | ⟨1, _⟩ => rfl
  | ⟨2, _⟩ => rfl
  | ⟨3, _⟩ => rfl

theorem idx21_ix (a : Fin 4) (b : Fin 64) (c : Fin 256) (d : Fin 256) (z : Fin 1) :
    idx_main_v21 (ix5 a b c d z) = ix4 a b c d := by
  funext e
  match e with
  | ⟨0, _⟩ => rfl
  | ⟨1, _⟩ => rfl
  | ⟨2, _⟩ => rfl
  | ⟨3, _⟩ => rfl

theorem idx24_ix (a : Fin 4) (b : Fin 64) (c : Fin 256) (d : Fin 256) (z : Fin 1) :
    idx_main_v24 (ix5 a b c d z) = ix4 a b c d := by
  funext e
  match e with
  | ⟨0, _⟩ => rfl
  | ⟨1, _⟩ => rfl
  | ⟨2, _⟩ => rfl
  | ⟨3, _⟩ => rfl

theorem idx25_ix (a : Fin 4) (b : Fin 64) (c : Fin 256) (d : Fin 256) (z : Fin 1) :
    idx_main_v25 (ix5 a b c d z) = ix4 a b c d := by
  funext e
  match e with
  | ⟨0, _⟩ => rfl
  | ⟨1, _⟩ => rfl
  | ⟨2, _⟩ => rfl
  | ⟨3, _⟩ => rfl

/-- Dropping the unit axis before the columns. -/
theorem idx28_ix (a : Fin 4) (b : Fin 64) (c : Fin 256) (z : Fin 1) (s : Fin 512) :
    idx_main_v28 (ix5 a b c z s) = ix4 a b c s := by
  funext e
  match e with
  | ⟨0, _⟩ => rfl
  | ⟨1, _⟩ => rfl
  | ⟨2, _⟩ => rfl
  | ⟨3, _⟩ => rfl

theorem idx29_ix (a : Fin 4) (b : Fin 64) (c : Fin 256) (z : Fin 1) (s : Fin 512) :
    idx_main_v29 (ix5 a b c z s) = ix4 a b c s := by
  funext e
  match e with
  | ⟨0, _⟩ => rfl
  | ⟨1, _⟩ => rfl
  | ⟨2, _⟩ => rfl
  | ⟨3, _⟩ => rfl

/-- Column s of a row of 512 is entry s % 2 of pair s / 2: the row-major position is kept. -/
theorem idx23_ix (a : Fin 4) (b : Fin 64) (c : Fin 256) (s : Fin 512) :
    idx_main_v23 (ix4 a b c s)
      = ix5 a b c (⟨s.val / 2, by omega⟩ : Fin 256) (⟨s.val % 2, by omega⟩ : Fin 2) := by
  have ha : a.val < 4 := a.isLt
  have hb : b.val < 64 := b.isLt
  have hc : c.val < 256 := c.isLt
  have hs : s.val < 512 := s.isLt
  funext e
  match e with
  | ⟨0, _⟩ =>
    apply Fin.ext
    show (((a.val * 64 + b.val) * 256 + c.val) * 512 + s.val) / 8388608 = a.val
    omega
  | ⟨1, _⟩ =>
    apply Fin.ext
    show (((a.val * 64 + b.val) * 256 + c.val) * 512 + s.val) / 131072 % 64 = b.val
    omega
  | ⟨2, _⟩ =>
    apply Fin.ext
    show (((a.val * 64 + b.val) * 256 + c.val) * 512 + s.val) / 512 % 256 = c.val
    omega
  | ⟨3, _⟩ =>
    apply Fin.ext
    show (((a.val * 64 + b.val) * 256 + c.val) * 512 + s.val) / 2 % 256 = s.val / 2
    omega
  | ⟨4, _⟩ =>
    apply Fin.ext
    show (((a.val * 64 + b.val) * 256 + c.val) * 512 + s.val) % 2 = s.val % 2
    omega

theorem idx27_ix (a : Fin 4) (b : Fin 64) (c : Fin 256) (s : Fin 512) :
    idx_main_v27 (ix4 a b c s)
      = ix5 a b c (⟨s.val / 2, by omega⟩ : Fin 256) (⟨s.val % 2, by omega⟩ : Fin 2) := by
  have ha : a.val < 4 := a.isLt
  have hb : b.val < 64 := b.isLt
  have hc : c.val < 256 := c.isLt
  have hs : s.val < 512 := s.isLt
  funext e
  match e with
  | ⟨0, _⟩ =>
    apply Fin.ext
    show (((a.val * 64 + b.val) * 256 + c.val) * 512 + s.val) / 8388608 = a.val
    omega
  | ⟨1, _⟩ =>
    apply Fin.ext
    show (((a.val * 64 + b.val) * 256 + c.val) * 512 + s.val) / 131072 % 64 = b.val
    omega
  | ⟨2, _⟩ =>
    apply Fin.ext
    show (((a.val * 64 + b.val) * 256 + c.val) * 512 + s.val) / 512 % 256 = c.val
    omega
  | ⟨3, _⟩ =>
    apply Fin.ext
    show (((a.val * 64 + b.val) * 256 + c.val) * 512 + s.val) / 2 % 256 = s.val / 2
    omega
  | ⟨4, _⟩ =>
    apply Fin.ext
    show (((a.val * 64 + b.val) * 256 + c.val) * 512 + s.val) % 2 = s.val % 2
    omega

/-- Row r of 512 rows is row r % 2 of row pair r / 2: the row-major position is kept. -/
theorem idx31_ix (a : Fin 4) (b : Fin 64) (r : Fin 512) (s : Fin 512) :
    idx_main_v31 (ix4 a b r s)
      = ix5 a b (⟨r.val / 2, by omega⟩ : Fin 256) (⟨r.val % 2, by omega⟩ : Fin 2) s := by
  have ha : a.val < 4 := a.isLt
  have hb : b.val < 64 := b.isLt
  have hr : r.val < 512 := r.isLt
  have hs : s.val < 512 := s.isLt
  funext e
  match e with
  | ⟨0, _⟩ =>
    apply Fin.ext
    show (((a.val * 64 + b.val) * 512 + r.val) * 512 + s.val) / 16777216 = a.val
    omega
  | ⟨1, _⟩ =>
    apply Fin.ext
    show (((a.val * 64 + b.val) * 512 + r.val) * 512 + s.val) / 262144 % 64 = b.val
    omega
  | ⟨2, _⟩ =>
    apply Fin.ext
    show (((a.val * 64 + b.val) * 512 + r.val) * 512 + s.val) / 1024 % 256 = r.val / 2
    omega
  | ⟨3, _⟩ =>
    apply Fin.ext
    show (((a.val * 64 + b.val) * 512 + r.val) * 512 + s.val) / 512 % 2 = r.val % 2
    omega
  | ⟨4, _⟩ =>
    apply Fin.ext
    show (((a.val * 64 + b.val) * 512 + r.val) * 512 + s.val) % 512 = s.val
    omega

/-! ## The interleaved arrays, at an index -/

/-- The pair of even-row arrays stacked on a last axis: entry q of the pair at (c, d) is the synthesis of
    row parity 0 and column parity q at (c, d). -/
theorem v22_at (x0 x1 x2 x3 : (⟨S4x64x256x256, .f32⟩ : BufTy).Contents (Elt F))
    (a : Fin 4) (b : Fin 64) (c : Fin 256) (d : Fin 256) (q : Fin 2) :
    val_main_v22 (F := F) x0 x1 x2 x3 (ix5 a b c d q)
      = synth 0 q.val (x0 (ix4 a b c d)) (x1 (ix4 a b c d)) (x2 (ix4 a b c d)) (x3 (ix4 a b c d)) := by
  have hq2 : q.val < 2 := q.isLt
  unfold val_main_v22
  rcases (show q.val = 0 ∨ q.val = 1 by omega) with hq | hq
  · rw [cat4_left _ _ a b c d q hq, val_main_v20_apply, idx20_ix, hq]
    exact v4_at x0 x1 x2 x3 (ix4 a b c d)
  · rw [cat4_right _ _ a b c d q hq, val_main_v21_apply, idx21_ix, hq]
    exact v9_at x0 x1 x2 x3 (ix4 a b c d)

/-- The pair of odd-row arrays stacked on a last axis. -/
theorem v26_at (x0 x1 x2 x3 : (⟨S4x64x256x256, .f32⟩ : BufTy).Contents (Elt F))
    (a : Fin 4) (b : Fin 64) (c : Fin 256) (d : Fin 256) (q : Fin 2) :
    val_main_v26 (F := F) x0 x1 x2 x3 (ix5 a b c d q)
      = synth 1 q.val (x0 (ix4 a b c d)) (x1 (ix4 a b c d)) (x2 (ix4 a b c d)) (x3 (ix4 a b c d)) := by
  have hq2 : q.val < 2 := q.isLt
  unfold val_main_v26
  rcases (show q.val = 0 ∨ q.val = 1 by omega) with hq | hq
  · rw [cat4_left _ _ a b c d q hq, val_main_v24_apply, idx24_ix, hq]
    exact v14_at x0 x1 x2 x3 (ix4 a b c d)
  · rw [cat4_right _ _ a b c d q hq, val_main_v25_apply, idx25_ix, hq]
    exact v19_at x0 x1 x2 x3 (ix4 a b c d)

/-- The even rows of the image, columns interleaved: column s is the synthesis of row parity 0 and column
    parity s % 2 at column s / 2. -/
theorem v23_at (x0 x1 x2 x3 : (⟨S4x64x256x256, .f32⟩ : BufTy).Contents (Elt F))
    (a : Fin 4) (b : Fin 64) (c : Fin 256) (s : Fin 512) :
    val_main_v23 (F := F) x0 x1 x2 x3 (ix4 a b c s)
      = synth 0 (s.val % 2)
          (x0 (ix4 a b c (⟨s.val / 2, by omega⟩ : Fin 256))) (x1 (ix4 a b c (⟨s.val / 2, by omega⟩ : Fin 256)))
          (x2 (ix4 a b c (⟨s.val / 2, by omega⟩ : Fin 256))) (x3 (ix4 a b c (⟨s.val / 2, by omega⟩ : Fin 256))) := by
  rw [val_main_v23_apply, idx23_ix, v22_at]

/-- The odd rows of the image, columns interleaved. -/
theorem v27_at (x0 x1 x2 x3 : (⟨S4x64x256x256, .f32⟩ : BufTy).Contents (Elt F))
    (a : Fin 4) (b : Fin 64) (c : Fin 256) (s : Fin 512) :
    val_main_v27 (F := F) x0 x1 x2 x3 (ix4 a b c s)
      = synth 1 (s.val % 2)
          (x0 (ix4 a b c (⟨s.val / 2, by omega⟩ : Fin 256))) (x1 (ix4 a b c (⟨s.val / 2, by omega⟩ : Fin 256)))
          (x2 (ix4 a b c (⟨s.val / 2, by omega⟩ : Fin 256))) (x3 (ix4 a b c (⟨s.val / 2, by omega⟩ : Fin 256))) := by
  rw [val_main_v27_apply, idx27_ix, v26_at]

/-- The two row arrays stacked before the columns: row p of row pair c. -/
theorem v30_at (x0 x1 x2 x3 : (⟨S4x64x256x256, .f32⟩ : BufTy).Contents (Elt F))
    (a : Fin 4) (b : Fin 64) (c : Fin 256) (p : Fin 2) (s : Fin 512) :
    val_main_v30 (F := F) x0 x1 x2 x3 (ix5 a b c p s)
      = synth p.val (s.val % 2)
          (x0 (ix4 a b c (⟨s.val / 2, by omega⟩ : Fin 256))) (x1 (ix4 a b c (⟨s.val / 2, by omega⟩ : Fin 256)))
          (x2 (ix4 a b c (⟨s.val / 2, by omega⟩ : Fin 256))) (x3 (ix4 a b c (⟨s.val / 2, by omega⟩ : Fin 256))) := by
  have hp2 : p.val < 2 := p.isLt
  unfold val_main_v30
  rcases (show p.val = 0 ∨ p.val = 1 by omega) with hp | hp
  · rw [cat3_left _ _ a b c p s hp, val_main_v28_apply, idx28_ix, hp]
    exact v23_at x0 x1 x2 x3 a b c s
  · rw [cat3_right _ _ a b c p s hp, val_main_v29_apply, idx29_ix, hp]
    exact v27_at x0 x1 x2 x3 a b c s

/-- The reference's result at row r and column s: the synthesis by the parities of r and s of the
    coefficients at row r / 2 and column s / 2. -/
theorem v31_at (x0 x1 x2 x3 : (⟨S4x64x256x256, .f32⟩ : BufTy).Contents (Elt F))
    (a : Fin 4) (b : Fin 64) (r : Fin 512) (s : Fin 512) :
    val_main_v31 (F := F) x0 x1 x2 x3 (ix4 a b r s)
      = synth (r.val % 2) (s.val % 2)
          (x0 (ix4 a b (⟨r.val / 2, by omega⟩ : Fin 256) (⟨s.val / 2, by omega⟩ : Fin 256)))
          (x1 (ix4 a b (⟨r.val / 2, by omega⟩ : Fin 256) (⟨s.val / 2, by omega⟩ : Fin 256)))
          (x2 (ix4 a b (⟨r.val / 2, by omega⟩ : Fin 256) (⟨s.val / 2, by omega⟩ : Fin 256)))
          (x3 (ix4 a b (⟨r.val / 2, by omega⟩ : Fin 256) (⟨s.val / 2, by omega⟩ : Fin 256))) := by
  rw [val_main_v31_apply, idx31_ix, v30_at]

/-! ## The reference is the image -/

/-- The reference's result is the inverse Haar image of its four arguments. -/
theorem ref_eq_image (x0 x1 x2 x3 : (⟨S4x64x256x256, .f32⟩ : BufTy).Contents (Elt F)) :
    val_main_v31 (F := F) x0 x1 x2 x3
      = image (F := F) (B := 4) (C := 64) (H := 256) (W := 256) (H2 := 512) (W2 := 512) rfl rfl x0 x1 x2 x3 := by
  funext i
  obtain ⟨a, b, r, s, rfl⟩ : ∃ (a : Fin 4) (b : Fin 64) (r : Fin 512) (s : Fin 512), i = ix4 a b r s :=
    ⟨i 0, i 1, i 2, i 3, eq_ix4 i⟩
  refine (v31_at x0 x1 x2 x3 a b r s).trans ?_
  refine (image_apply (F := F) (B := 4) (C := 64) (H := 256) (W := 256) (H2 := 512) (W2 := 512) rfl rfl x0 x1 x2 x3
    (ix4 a b r s) (ix4 a b (⟨r.val / 2, by omega⟩ : Fin 256) (⟨s.val / 2, by omega⟩ : Fin 256))
    (r.val % 2) (s.val % 2) (by omega) (by omega) rfl rfl ?_ ?_).symm
  · show r.val = 2 * (r.val / 2) + r.val % 2
    omega
  · show s.val = 2 * (s.val / 2) + s.val % 2
    omega

end Cert.ReferenceIdeal.Image

end
-- ==== Proof.lean ====
/-
  The certificate of an inverse two-dimensional Haar transform: a kernel that reconstructs a [4, 64, 512, 512]
  image from its four [4, 64, 256, 256] subbands, against the same reconstruction written with whole-array
  operations.

  Both programs compute, at image row `r` and column `s`, the same expression of the four coefficients at
  row `r / 2`, column `s / 2` — sums and differences in the same order, times the same literal one half —
  chosen by the parities of `r` and `s` (`Cert.Haar.image`).  They differ only in how the image is laid out:

    * the kernel walks a 4 × 16 grid of (batch entry, four channels) blocks; inside a block a loop of
      thirty-two trips turns eight rows of each subband into sixteen image rows by interleaving first along
      the lanes, then along the rows, and stores them; the tiles fill the block, the blocks fill the array
      (`Cert.KernelIdeal.Image.run`);
    * the reference pairs the columns of whole arrays by a trailing axis of extent two flattened away, then
      pairs the rows the same way (`Cert.ReferenceIdeal.Image.ref_eq_image`).

  Since the arithmetic is literally the same on both sides, no law of the extended reals is used and the
  finiteness of the inputs is never opened: the two results are one function of the arguments, index by index.
  The kernels' frames are their generated frame runs; the reference's is its run — a straight line of thirty-six
  whole-array operations, read window by window (`Cert.ReferenceIdeal.RunP.run`) — with the result dropped; and
  the idealisation rewrote nothing, so its conjunct is trivial.
-/
import proofs.«171421_j34754875359596_2_alg».proof.Defs
import proofs.«171421_j34754875359596_2_alg».proof.Proof.Gen.Kernel
import proofs.«171421_j34754875359596_2_alg».proof.Proof.Gen.Kernel.Skeleton
import proofs.«171421_j34754875359596_2_alg».proof.Proof.Gen.Kernel.Loops
import proofs.«171421_j34754875359596_2_alg».proof.Proof.Gen.Kernel.Launch
import proofs.«171421_j34754875359596_2_alg».proof.Proof.Gen.Kernel.Points
import proofs.«171421_j34754875359596_2_alg».proof.Proof.Gen.Kernel.Frame
import proofs.«171421_j34754875359596_2_alg».proof.Proof.Gen.KernelIdeal
import proofs.«171421_j34754875359596_2_alg».proof.Proof.Gen.KernelIdeal.Skeleton
import proofs.«171421_j34754875359596_2_alg».proof.Proof.Gen.KernelIdeal.Loops
import proofs.«171421_j34754875359596_2_alg».proof.Proof.Gen.KernelIdeal.Launch
import proofs.«171421_j34754875359596_2_alg».proof.Proof.Gen.KernelIdeal.Points
import proofs.«171421_j34754875359596_2_alg».proof.Proof.Gen.KernelIdeal.Frame
import proofs.«171421_j34754875359596_2_alg».proof.Proof.Gen.ReferenceIdeal
import proofs.«171421_j34754875359596_2_alg».proof.Proof.Gen.Pre_finite_inputs
import proofs.«171421_j34754875359596_2_alg».proof.Proof.Gen.KernelIdeal.Value
import proofs.«171421_j34754875359596_2_alg».proof.Proof.KernelImage
import proofs.«171421_j34754875359596_2_alg».proof.Proof.RefRun
import proofs.«171421_j34754875359596_2_alg».proof.Proof.RefImage
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealisation rewrote no operation. -/
theorem preserves : Cert.preserves_Kernel_KernelIdeal := trivial

/-- From memories agreeing on the four subbands both programs end with the image of those subbands: the kernel
    block by block and tile by tile, the reference by two pairings of whole arrays. -/
theorem algebraic : Cert.algebraic_KernelIdeal_ReferenceIdeal := by
  intro m ρ m' ρ' _ hagree
  refine ⟨_, Cert.KernelIdeal.Image.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Image.ref_eq_image, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
